-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64x64 .f32) (main_arg9 : FVec F S64 .f32) (main_arg10 : FVec F S64x64 .f32) (main_arg11 : FVec F S1x64 .f32) (main_arg12 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S1x64 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S10000x64 : Shape := ⟨2, ![10000, 64]⟩
abbrev S1x1 : Shape := ⟨2, ![1, 1]⟩
abbrev S10000x1 : Shape := ⟨2, ![10000, 1]⟩
abbrev S64x1 : Shape := ⟨2, ![64, 1]⟩

abbrev nBuf : Space → Nat
  | .hbm => 85
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S1x1, .f32⟩
  | .hbm, ⟨84, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S1x1, .f32⟩
  | .local _ .vmem, ⟨31, _⟩ => ⟨S10000x1, .f32⟩
  | .local _ .vmem, ⟨32, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S100000x1.size a
  hwx3_3 : ∀ i : grid3.Coords, EltTy.bits .f32 = 32 ∨ (Rect.block (s := S100000x1) S10000x1.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S1x64, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S64x64, .f32⟩
  | 43 => ⟨S100000x64, .f32⟩
  | 44 => ⟨S1x64, .f32⟩
  | 45 => ⟨S100000x64, .f32⟩
  | 46 => ⟨S100000x64, .f32⟩
  | 47 => ⟨S64x64, .f32⟩
  | 48 => ⟨S100000x64, .f32⟩
  | 49 => ⟨S100000x64, .f32⟩
  | 50 => ⟨S_, .f32⟩
  | 51 => ⟨S100000x64, .f32⟩
  | 52 => ⟨S100000x64, .i1⟩
  | 53 => ⟨S_, .f32⟩
  | 54 => ⟨S100000x64, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S64x64, .f32⟩
  | 83 => ⟨S100000x64, .f32⟩
  | 84 => ⟨S1x64, .f32⟩
  | 85 => ⟨S100000x64, .f32⟩
  | 86 => ⟨S100000x64, .f32⟩
  | 87 => ⟨S64x64, .f32⟩
  | 88 => ⟨S100000x64, .f32⟩
  | 89 => ⟨S100000x64, .f32⟩
  | 90 => ⟨S_, .f32⟩
  | 91 => ⟨S100000x64, .f32⟩
  | 92 => ⟨S100000x64, .i1⟩
  | 93 => ⟨S_, .f32⟩
  | 94 => ⟨S100000x64, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S64x64, .f32⟩
  | 123 => ⟨S100000x64, .f32⟩
  | 124 => ⟨S1x64, .f32⟩
  | 125 => ⟨S100000x64, .f32⟩
  | 126 => ⟨S100000x64, .f32⟩
  | 127 => ⟨S64x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S64x1, .f32⟩
  | 10 => ⟨S100000x1, .f32⟩
  | 11 => ⟨S1x1, .f32⟩
  | 12 => ⟨S100000x1, .f32⟩
  | 13 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.SageRun.lean ====
import proofs.«131738_j28527172780199_1_alg».proof.Proof.Gen.KernelIdeal.Frame

/-!
# The kernel program's run, with its result named

The program is four kernel regions among stretches of host operations. Its run ends with every buffer that outlives
the regions at the last boundary's contents: the fold of the four stretches and the four regions' write-backs from
the launch memory. Here that final fact is kept for the result buffer as well as for the arguments: the result array
ends at the last boundary's contents of its buffer, and every argument ends as launched.
-/

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and each argument array as launched. -/
theorem run_named : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.Sage.Run

end
-- ==== Proof.LibMulRecip.lean ====
import Idealize.ShloMosaic.PureOps.Ideal.Laws

/-!
# Multiplying by a reciprocal is dividing, on the extended reals

Division of extended reals, off a zero divisor, IS multiplication by the inverse (`x / y = x · y⁻¹`, with
`(±∞)⁻¹ = 0`). So `a · (1 / d) = a / d` for EVERY extended real `a` — infinite ones included — as soon as `d ≠ 0`:
no finiteness of `a` or `d` is needed. A kernel that hoists `1 / max(deg, 1)` out of a loop and multiplies by it
agrees with a reference that divides by `max(deg, 1)`, because a number clamped below by one is never zero.
-/

noncomputable section

namespace Cert.Lib.MulRecip

open Idealize.ShloMosaic

/-- Multiplying by the reciprocal of a non-zero divisor is dividing by it, for every extended real dividend. -/
theorem mul_recip (a d : EReal) (hd : d ≠ 0) : a * Ideal.div 1 d = Ideal.div a d := by
  unfold Ideal.div
  rw [if_neg hd, if_neg hd, one_mul]

/-- The reciprocal of a non-zero extended real is its inverse. -/
theorem recip_eq_inv (d : EReal) (hd : d ≠ 0) : Ideal.div 1 d = d⁻¹ := by
  unfold Ideal.div
  rw [if_neg hd, one_mul]

/-- A number clamped below by one is not zero. -/
theorem max_one_ne_zero (x : EReal) : max x 1 ≠ 0 := by
  intro h
  have h1 : (1 : EReal) ≤ max x 1 := le_max_right x 1
  rw [h] at h1
  exact absurd h1 (by norm_num)

/-- Hence a sum times the reciprocal of a degree clamped below by one is the sum divided by the clamped degree. -/
theorem mul_recip_clamped (a x : EReal) : a * Ideal.div 1 (max x 1) = Ideal.div a (max x 1) :=
  mul_recip a (max x 1) (max_one_ne_zero x)

end Cert.Lib.MulRecip

end
-- ==== Proof.SageSpec.lean ====
import Idealize.ShloMosaic.PureOps.Ideal.Laws
import Idealize.ShloMosaic.Lib.ValueIdx
import proofs.«131738_j28527172780199_1_alg».proof.Proof.LibMulRecip

/-!
# One graph-convolution layer, entry by entry, over the extended reals

A layer takes the neighbourhood mean `M` and the node features `H` (both `n × 64`), two weight matrices stored
output-channel first (`Wl`, `Wr` : `64 × 64`) and a bias `b`, and returns at node `r`, channel `o`

  `leaky (∑ₖ M r k · Wl o k  +  b o  +  ∑ₖ H r k · Wr o k)`,

where `leaky z` is `z` when `z ≥ 0` and `slope · z` otherwise. The final projection is `∑ₖ H r k · w 0 k + b`.
The two sums are kept in this order and grouping: on the extended reals addition is associative and commutative but
the layer is stated with exactly the grouping both programs use, so no law is needed to compare them.

The mean itself is a sum divided by a degree clamped below by one. One program multiplies by the reciprocal of the
clamped degree, the other divides by it; `mul_recip` says these agree whenever the divisor is not zero — with no
finiteness assumption, because division off zero IS multiplication by the inverse on the extended reals.
-/

noncomputable section

namespace Cert.Sage

open Idealize.ShloMosaic Idealize.ShloMosaic.ValueIdx

/-- An `a × b` table of extended reals, indexed as a rank-2 array. -/
abbrev Mat (a b : Nat) := (⟨2, ![a, b]⟩ : Shape).Idx → EReal

/-- The leaky rectifier: `z` if `z ≥ 0`, else the slope (the float nearest one hundredth) times `z`. -/
def leaky (z : Ideal .f32) : Ideal .f32 :=
  Scalar.select (FloatOps.cmpf (F := Ideal) (φ := .f32) .oge z (FloatOps.ofBits .f32 0x00000000#32)) z
    (FloatOps.mulf (F := Ideal) (φ := .f32) (FloatOps.ofBits .f32 0x3C23D70A#32) z)

/-- What a layer holds before the rectifier at node `r`, channel `o`. -/
def preAct {n : Nat} (M H : Mat n 64) (Wl Wr : Mat 64 64) (b : Fin 64 → EReal) (r : Fin n) (o : Fin 64) : EReal :=
  (∑ k : Fin 64, M (ix2 r k) * Wl (ix2 o k)) + b o + ∑ k : Fin 64, H (ix2 r k) * Wr (ix2 o k)

/-- A layer's value at node `r`, channel `o`. -/
def layerEntry {n : Nat} (M H : Mat n 64) (Wl Wr : Mat 64 64) (b : Fin 64 → EReal) (r : Fin n) (o : Fin 64) : EReal :=
  leaky (preAct M H Wl Wr b r o)

/-- The output projection at node `r`: the features against the one weight row, plus the bias. -/
def projEntry {n : Nat} (H : Mat n 64) (w : Mat 1 64) (b : EReal) (r : Fin n) : EReal :=
  (∑ k : Fin 64, H (ix2 r k) * w (ix2 (0 : Fin 1) k)) + b

/-- A layer over a whole `n × 64` array. -/
def layer {n : Nat} (M H : Mat n 64) (Wl Wr : Mat 64 64) (b : Fin 64 → EReal) : Mat n 64 :=
  fun i => layerEntry M H Wl Wr b (i 0) (i 1)

/-- The projection over a whole array, as an `n × 1` column. -/
def proj {n : Nat} (H : Mat n 64) (w : Mat 1 64) (b : EReal) : Mat n 1 :=
  fun i => projEntry H w b (i 0)

/-- A layer's entry depends only on the row of `M` and of `H` at the node, the two weight rows at the channel, and
    the bias there: two entries with those rows equal are equal. -/
theorem layerEntry_congr {n n' : Nat} (M H : Mat n 64) (M' H' : Mat n' 64) (Wl Wr Wl' Wr' : Mat 64 64)
    (b b' : Fin 64 → EReal) (r : Fin n) (r' : Fin n') (o o' : Fin 64)
    (hM : ∀ k, M (ix2 r k) = M' (ix2 r' k)) (hH : ∀ k, H (ix2 r k) = H' (ix2 r' k))
    (hWl : ∀ k, Wl (ix2 o k) = Wl' (ix2 o' k)) (hWr : ∀ k, Wr (ix2 o k) = Wr' (ix2 o' k)) (hb : b o = b' o') :
    layerEntry M H Wl Wr b r o = layerEntry M' H' Wl' Wr' b' r' o' := by
  have e1 : (∑ k : Fin 64, M (ix2 r k) * Wl (ix2 o k)) = ∑ k : Fin 64, M' (ix2 r' k) * Wl' (ix2 o' k) :=
    Finset.sum_congr rfl fun k _ => by rw [hM k, hWl k]
  have e2 : (∑ k : Fin 64, H (ix2 r k) * Wr (ix2 o k)) = ∑ k : Fin 64, H' (ix2 r' k) * Wr' (ix2 o' k) :=
    Finset.sum_congr rfl fun k _ => by rw [hH k, hWr k]
  unfold layerEntry preAct
  rw [e1, e2, hb]

/-- The projection's entry depends only on the node's row of `H`, the weight row and the bias. -/
theorem projEntry_congr {n n' : Nat} (H : Mat n 64) (H' : Mat n' 64) (w w' : Mat 1 64) (b b' : EReal)
    (r : Fin n) (r' : Fin n') (hH : ∀ k, H (ix2 r k) = H' (ix2 r' k))
    (hw : ∀ k, w (ix2 (0 : Fin 1) k) = w' (ix2 (0 : Fin 1) k)) (hb : b = b') :
    projEntry H w b r = projEntry H' w' b' r' := by
  have e1 : (∑ k : Fin 64, H (ix2 r k) * w (ix2 (0 : Fin 1) k)) = ∑ k : Fin 64, H' (ix2 r' k) * w' (ix2 (0 : Fin 1) k) :=
    Finset.sum_congr rfl fun k _ => by rw [hH k, hw k]
  unfold projEntry
  rw [e1, hb]

/-- Equal operands give equal layers. -/
theorem layer_congr {n : Nat} {M M' H H' : Mat n 64} {Wl Wl' Wr Wr' : Mat 64 64} {b b' : Fin 64 → EReal}
    (hM : M = M') (hH : H = H') (hWl : Wl = Wl') (hWr : Wr = Wr') (hb : ∀ o, b o = b' o) :
    layer M H Wl Wr b = layer M' H' Wl' Wr' b' := by
  have hbb : b = b' := funext hb
  subst hM hH hWl hWr hbb
  rfl

/-- Equal operands give equal projections. -/
theorem proj_congr {n : Nat} {H H' : Mat n 64} {w w' : Mat 1 64} {b b' : EReal}
    (hH : H = H') (hw : w = w') (hb : b = b') : proj H w b = proj H' w' b' := by
  subst hH hw hb
  rfl

-- the two facts about division that join the two spellings of the mean
export Cert.Lib.MulRecip (mul_recip max_one_ne_zero)

end Cert.Sage

end
-- ==== Proof.SagePayload.lean ====
import proofs.«131738_j28527172780199_1_alg».proof.Proof.Gen.KernelIdeal.Skeleton
import proofs.«131738_j28527172780199_1_alg».proof.Proof.SageSpec
import Idealize.ShloMosaic.Lib.Pipeline.Value
import Idealize.ShloMosaic.Lib.ValueIdx
import Idealize.ShloMosaic.PureOps.Ideal.Laws

/-!
# The kernel bodies, read at an entry

Each of the three layer bodies computes, on a block of 10000 rows, two matrix products against weights transposed
inside the body, a bias row broadcast over the rows, and the leaky rectifier. Read at row `p`, channel `q`, a product
of a block `a` with the transpose of `w` into a zero accumulator is `∑ₖ a p k · w q k`: the contraction runs over the
shared axis of length 64, and transposing `w` swaps its two coordinates. The changes of float format are the identity
on the extended reals. So a body's entry is the layer's entry (`Cert.Sage.layerEntry`) of its five blocks, and the
projection body's is `Cert.Sage.projEntry`.
-/

noncomputable section

namespace Cert.Sage.Payload

open Cert.KernelIdeal Cert.KernelIdeal.Gen Cert.Sage Idealize.ShloMosaic Idealize.ShloMosaic.ValueIdx

/-- The dimension numbers of a layer's two products: rows by channels, contracting the 64 features. -/
abbrev DL := dot_S10000x64_S64x64_S10000x64_1_0_0_1_n_n
/-- The dimension numbers of the projection's product: rows by one column. -/
abbrev DP := dot_S10000x64_S64x1_S10000x1_1_0_0_1_n_n

theorem DL_lhs0 (i : S10000x64.Idx) (c : DL.contr.Idx) : (DL.lhsIdx i c 0).val = (i 0).val := by
  unfold DotDims.lhsIdx
  rw [dif_neg (show ¬(0 : Fin S10000x64.rank) ∈ DL.lhsBatch by decide), dif_pos (show (0 : Fin S10000x64.rank) ∈ DL.lhsNonContracting by decide)]
  rfl
theorem DL_lhs1 (i : S10000x64.Idx) (c : DL.contr.Idx) : (DL.lhsIdx i c 1).val = (c ⟨0, by decide⟩).val :=
  DL.lhsIdx_val_of_single rfl i c
theorem DL_rhs0 (i : S10000x64.Idx) (c : DL.contr.Idx) : (DL.rhsIdx i c 0).val = (c ⟨0, by decide⟩).val :=
  DL.rhsIdx_val_of_single rfl i c
theorem DL_rhs1 (i : S10000x64.Idx) (c : DL.contr.Idx) : (DL.rhsIdx i c 1).val = (i 1).val := by
  unfold DotDims.rhsIdx
  rw [dif_neg (show ¬(1 : Fin S64x64.rank) ∈ DL.rhsBatch by decide), dif_pos (show (1 : Fin S64x64.rank) ∈ DL.rhsNonContracting by decide)]
  rfl

theorem DP_lhs0 (i : S10000x1.Idx) (c : DP.contr.Idx) : (DP.lhsIdx i c 0).val = (i 0).val := by
  unfold DotDims.lhsIdx
  rw [dif_neg (show ¬(0 : Fin S10000x64.rank) ∈ DP.lhsBatch by decide), dif_pos (show (0 : Fin S10000x64.rank) ∈ DP.lhsNonContracting by decide)]
  rfl
theorem DP_lhs1 (i : S10000x1.Idx) (c : DP.contr.Idx) : (DP.lhsIdx i c 1).val = (c ⟨0, by decide⟩).val :=
  DP.lhsIdx_val_of_single rfl i c
theorem DP_rhs0 (i : S10000x1.Idx) (c : DP.contr.Idx) : (DP.rhsIdx i c 0).val = (c ⟨0, by decide⟩).val :=
  DP.rhsIdx_val_of_single rfl i c
theorem DP_rhs1 (i : S10000x1.Idx) (c : DP.contr.Idx) : (DP.rhsIdx i c 1).val = (i 1).val := by
  unfold DotDims.rhsIdx
  rw [dif_neg (show ¬(1 : Fin S64x1.rank) ∈ DP.rhsBatch by decide), dif_pos (show (1 : Fin S64x1.rank) ∈ DP.rhsNonContracting by decide)]
  rfl

/-- A block times a transposed 64 × 64 weight, into zero, at `(p, q)`: `∑ₖ a p k · w q k`. -/
theorem mmT_entry (a : FVec Ideal S10000x64 .bf16) (w : FVec Ideal S64x64 .bf16) (p : Fin 10000) (q : Fin 64) :
    matmul DL none a (transpose S64x64 [1, 0] w transposes_S64x64_p1_0_S64x64) (constant (F := Ideal) S10000x64 .f32 0x00000000#32) (ix2 p q)
      = ∑ k : Fin 64, a (ix2 p k) * w (ix2 q k) := by
  refine (Ideal.matmul_constant_zero_apply DL none a _ (ix2 p q)).trans ?_
  rw [← Equiv.sum_comp (contrEquiv1 DL 64 rfl rfl).symm]
  refine Finset.sum_congr rfl fun k _ => ?_
  have hk := contrEquiv1_symm_val DL 64 rfl rfl k
  have el : DL.lhsIdx (ix2 p q) ((contrEquiv1 DL 64 rfl rfl).symm k) = ix2 p k := funext fun b => Fin.ext (by
    match b with
    | ⟨0, _⟩ => exact DL_lhs0 _ _
    | ⟨1, _⟩ => exact (DL_lhs1 _ _).trans hk)
  rw [el]
  refine congrArg (a (ix2 p k) * ·) ?_
  refine transpose_apply [1, 0] w transposes_S64x64_p1_0_S64x64 _ (ix2 q k) (fun b => ?_)
  match b with
  | ⟨0, _⟩ => show k.val = _; exact ((DL_rhs0 (ix2 p q) _).trans hk).symm
  | ⟨1, _⟩ => show q.val = _; exact (DL_rhs1 (ix2 p q) _).symm

/-- A block times the transposed 1 × 64 weight row, into zero, at `(p, 0)`: `∑ₖ a p k · w 0 k`. -/
theorem mmT1_entry (a : FVec Ideal S10000x64 .bf16) (w : FVec Ideal S1x64 .bf16) (p : Fin 10000) (u : Fin 1) :
    matmul DP none a (transpose S64x1 [1, 0] w transposes_S1x64_p1_0_S64x1) (constant (F := Ideal) S10000x1 .f32 0x00000000#32) (ix2 p u)
      = ∑ k : Fin 64, a (ix2 p k) * w (ix2 (0 : Fin 1) k) := by
  refine (Ideal.matmul_constant_zero_apply DP none a _ (ix2 p u)).trans ?_
  rw [← Equiv.sum_comp (contrEquiv1 DP 64 rfl rfl).symm]
  refine Finset.sum_congr rfl fun k _ => ?_
  have hk := contrEquiv1_symm_val DP 64 rfl rfl k
  have el : DP.lhsIdx (ix2 p u) ((contrEquiv1 DP 64 rfl rfl).symm k) = ix2 p k := funext fun b => Fin.ext (by
    match b with
    | ⟨0, _⟩ => exact DP_lhs0 _ _
    | ⟨1, _⟩ => exact (DP_lhs1 _ _).trans hk)
  rw [el]
  refine congrArg (a (ix2 p k) * ·) ?_
  refine transpose_apply [1, 0] w transposes_S1x64_p1_0_S64x1 _ (ix2 (0 : Fin 1) k) (fun b => ?_)
  match b with
  | ⟨0, _⟩ => show k.val = _; exact ((DP_rhs0 (ix2 p u) _).trans hk).symm
  | ⟨1, _⟩ =>
    have hu : u.val = 0 := by omega
    show (0 : Nat) = _
    exact ((DP_rhs1 (ix2 p u) _).trans hu).symm

/-- The mean's product, with the format changes and the identity cast read off. -/
theorem mean_term (x0 : Vec Ideal S10000x64 .f32) (x2 : Vec Ideal S64x64 .f32) (p : Fin 10000) (q : Fin 64) :
    matmul DL none (truncf .bf16 (shapeCast S10000x64 x0 shapeCasts_S10000x64_S10000x64) bitsLt_bf16_f32)
        (transpose S64x64 [1, 0] (truncf .bf16 x2 bitsLt_bf16_f32) transposes_S64x64_p1_0_S64x64)
        (constant (F := Ideal) S10000x64 .f32 0x00000000#32) (ix2 p q)
      = ∑ k : Fin 64, x0 (ix2 p k) * x2 (ix2 q k) :=
  (mmT_entry _ _ p q).trans (Finset.sum_congr rfl fun k _ => by
    rw [truncf_apply, truncf_apply, shapeCast_self])

/-- The features' own product. -/
theorem self_term (x1 : Vec Ideal S10000x64 .f32) (x4 : Vec Ideal S64x64 .f32) (p : Fin 10000) (q : Fin 64) :
    matmul DL none (truncf .bf16 x1 bitsLt_bf16_f32)
        (transpose S64x64 [1, 0] (truncf .bf16 x4 bitsLt_bf16_f32) transposes_S64x64_p1_0_S64x64)
        (constant (F := Ideal) S10000x64 .f32 0x00000000#32) (ix2 p q)
      = ∑ k : Fin 64, x1 (ix2 p k) * x4 (ix2 q k) :=
  (mmT_entry _ _ p q).trans (Finset.sum_congr rfl fun k _ => by
    rw [truncf_apply, truncf_apply])

/-- The features' own product when the block first passes through an identity cast. -/
theorem self_term_cast (x1 : Vec Ideal S10000x64 .f32) (x4 : Vec Ideal S64x64 .f32) (p : Fin 10000) (q : Fin 64) :
    matmul DL none (truncf .bf16 (shapeCast S10000x64 x1 shapeCasts_S10000x64_S10000x64) bitsLt_bf16_f32)
        (transpose S64x64 [1, 0] (truncf .bf16 x4 bitsLt_bf16_f32) transposes_S64x64_p1_0_S64x64)
        (constant (F := Ideal) S10000x64 .f32 0x00000000#32) (ix2 p q)
      = ∑ k : Fin 64, x1 (ix2 p k) * x4 (ix2 q k) :=
  (mmT_entry _ _ p q).trans (Finset.sum_congr rfl fun k _ => by
    rw [truncf_apply, truncf_apply, shapeCast_self])

/-- The bias row broadcast over the rows, at `(p, q)`: the row's entry `q`. -/
theorem bias_term (x3 : Vec Ideal S1x64 .f32) (p : Fin 10000) (q : Fin 64) :
    broadcastTo S10000x64 (shapeCast S1x64 x3 shapeCasts_S1x64_S1x64) broadcasts_S1x64_S10000x64 (ix2 p q)
      = x3 (ix2 (0 : Fin 1) q) := by
  rw [shapeCast_self]
  exact broadcastTo_apply x3 broadcasts_S1x64_S10000x64 (ix2 p q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- Region 0's body, read at row `p`, channel `q` of its block: the layer's entry of the five loaded blocks. -/
theorem pay0_entry (x0 x1 : Vec Ideal S10000x64 .f32) (x2 x4 : Vec Ideal S64x64 .f32) (x3 : Vec Ideal S1x64 .f32)
    (p : Fin 10000) (q : Fin 64) :
    k0_pay1 (F := Ideal) x0 x1 x2 x4 x3 (ix2 p q)
      = layerEntry x0 x1 x2 x4 (fun o => x3 (ix2 (0 : Fin 1) o)) p q := by
  have h1 := mean_term x0 x2 p q
  have h2 := self_term x1 x4 p q
  have h3 := bias_term x3 p q
  unfold k0_pay1 layerEntry leaky preAct
  dsimp only
  rw [← h1, ← h2, ← h3]
  rfl

/-- Region 1's body, read at row `p`, channel `q` of its block: the layer's entry of the five loaded blocks. -/
theorem pay1_entry (x0 x1 : Vec Ideal S10000x64 .f32) (x2 x4 : Vec Ideal S64x64 .f32) (x3 : Vec Ideal S1x64 .f32)
    (p : Fin 10000) (q : Fin 64) :
    k1_pay1 (F := Ideal) x0 x1 x2 x4 x3 (ix2 p q)
      = layerEntry x0 x1 x2 x4 (fun o => x3 (ix2 (0 : Fin 1) o)) p q := by
  have h1 := mean_term x0 x2 p q
  have h2 := self_term_cast x1 x4 p q
  have h3 := bias_term x3 p q
  unfold k1_pay1 layerEntry leaky preAct
  dsimp only
  rw [← h1, ← h2, ← h3]
  rfl

/-- Region 2's body, read at row `p`, channel `q` of its block: the layer's entry of the five loaded blocks. -/
theorem pay2_entry (x0 x1 : Vec Ideal S10000x64 .f32) (x2 x4 : Vec Ideal S64x64 .f32) (x3 : Vec Ideal S1x64 .f32)
    (p : Fin 10000) (q : Fin 64) :
    k2_pay1 (F := Ideal) x0 x1 x2 x4 x3 (ix2 p q)
      = layerEntry x0 x1 x2 x4 (fun o => x3 (ix2 (0 : Fin 1) o)) p q := by
  have h1 := mean_term x0 x2 p q
  have h2 := self_term_cast x1 x4 p q
  have h3 := bias_term x3 p q
  unfold k2_pay1 layerEntry leaky preAct
  dsimp only
  rw [← h1, ← h2, ← h3]
  rfl

/-- The projection's product with the format changes read off. -/
theorem proj_term (x0 : Vec Ideal S10000x64 .f32) (w : Vec Ideal S1x64 .f32) (p : Fin 10000) (u : Fin 1) :
    matmul DP none (truncf .bf16 (shapeCast S10000x64 x0 shapeCasts_S10000x64_S10000x64) bitsLt_bf16_f32)
        (transpose S64x1 [1, 0] (truncf .bf16 w bitsLt_bf16_f32) transposes_S1x64_p1_0_S64x1)
        (constant (F := Ideal) S10000x1 .f32 0x00000000#32) (ix2 p u)
      = ∑ k : Fin 64, x0 (ix2 p k) * w (ix2 (0 : Fin 1) k) :=
  (mmT1_entry _ _ p u).trans (Finset.sum_congr rfl fun k _ => by
    rw [truncf_apply, truncf_apply, shapeCast_self])

/-- The scalar bias broadcast down the column. -/
theorem bias1_term (b : Vec Ideal S1x1 .f32) (p : Fin 10000) (u : Fin 1) :
    broadcastTo S10000x1 (shapeCast S1x1 b shapeCasts_S1x1_S1x1) broadcasts_S1x1_S10000x1 (ix2 p u)
      = b (ix2 (0 : Fin 1) (0 : Fin 1)) := by
  rw [shapeCast_self]
  exact broadcastTo_apply b broadcasts_S1x1_S10000x1 (ix2 p u) (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- The projection body at row `p`. -/
theorem pay3_entry (x0 : Vec Ideal S10000x64 .f32) (w : Vec Ideal S1x64 .f32) (b : Vec Ideal S1x1 .f32)
    (p : Fin 10000) (u : Fin 1) :
    k3_pay1 (F := Ideal) x0 w b (ix2 p u) = projEntry x0 w (b (ix2 (0 : Fin 1) (0 : Fin 1))) p := by
  have h1 := proj_term x0 w p u
  have h3 := bias1_term b p u
  unfold k3_pay1 projEntry
  dsimp only
  rw [← h1, ← h3]
  rfl

end Cert.Sage.Payload

end
-- ==== Proof.SageRegion0.lean ====
import proofs.«131738_j28527172780199_1_alg».proof.Proof.Gen.KernelIdeal.Frame
import proofs.«131738_j28527172780199_1_alg».proof.Proof.SagePayload
import Idealize.ShloMosaic.Lib.Pipeline.Value

/-!
# Layer 1's kernel region: its output array as one function of the arrays it finds

The region walks the 100000 rows in ten blocks of 10000. At block `t` it reads rows `10000·t …` of the mean and of
the features, the whole of both weight matrices and of the bias row, and writes rows `10000·t …` of its output. The
body's entry at `(p, q)` is the layer's entry of those blocks (the body read at an entry), and a block's row `p` is
the array's row `10000·t + p`; so what block `t` writes back is block `t` of ONE whole-array function, the layer of
the arrays as the region finds them. The ten blocks cover every row (row `r` lies in block `r / 10000`), hence the
output array after the region is that function.
-/

set_option maxRecDepth 16384

noncomputable section

namespace Cert.Sage.Region0

open Cert.KernelIdeal Cert.KernelIdeal.Gen Cert.Sage Cert.Sage.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the mean's and the features' blocks move with the output's along the rows;
    the weights and the bias stay at their one block; the output's row block is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- The layer of the arrays as the region finds them. -/
abbrev G (c : Dev nD) : S100000x64.Idx → EReal :=
  layer (V c main_v24) (V c main_arg0) (V c main_arg2) (V c main_arg4) (fun o => V c main_v25 (ix2 (0 : Fin 1) o))

/-- Row `p` of the mean's block at point `t` is the array's row `10000·t + p`. -/
theorem read_mean (c : Dev nD) (t : Fin cfg0.N) (p : Fin 10000) (k : Fin 64) (r : Fin 100000)
    (hr : r.val = win0_5.index t (0 : Fin 2) * 10000 + p.val) :
    iblk0 V c 0 t (ix2 p k) = V c main_v24 (ix2 r k) := by
  show V c main_v24 (((cfg0.win 0).blk t).view.emb (ix2 p k)) = _
  refine congrArg (V c main_v24) (funext fun a => Fin.ext ?_)
  obtain ⟨e0, e1, -⟩ := idx_facts t
  match a with
  | ⟨0, _⟩ => show win0_0.index t (0 : Fin 2) * 10000 + 1 * p.val = r.val; omega
  | ⟨1, _⟩ => show win0_0.index t (1 : Fin 2) * 64 + 1 * k.val = k.val; omega

/-- The same for the features' block. -/
theorem read_feat (c : Dev nD) (t : Fin cfg0.N) (p : Fin 10000) (k : Fin 64) (r : Fin 100000)
    (hr : r.val = win0_5.index t (0 : Fin 2) * 10000 + p.val) :
    iblk0 V c 1 t (ix2 p k) = V c main_arg0 (ix2 r k) := by
  show V c main_arg0 (((cfg0.win 1).blk t).view.emb (ix2 p k)) = _
  refine congrArg (V c main_arg0) (funext fun a => Fin.ext ?_)
  obtain ⟨-, -, e2, e3, -⟩ := idx_facts t
  match a with
  | ⟨0, _⟩ => show win0_1.index t (0 : Fin 2) * 10000 + 1 * p.val = r.val; omega
  | ⟨1, _⟩ => show win0_1.index t (1 : Fin 2) * 64 + 1 * k.val = k.val; omega

/-- The first weight's block is the whole matrix. -/
theorem read_wl (c : Dev nD) (t : Fin cfg0.N) (q k : Fin 64) (q' : Fin 64) (hq : q'.val = q.val) :
    iblk0 V c 2 t (ix2 q k) = V c main_arg2 (ix2 q' k) := by
  show V c main_arg2 (((cfg0.win 2).blk t).view.emb (ix2 q k)) = _
  refine congrArg (V c main_arg2) (funext fun a => Fin.ext ?_)
  obtain ⟨-, -, -, -, e4, e5, -⟩ := idx_facts t
  match a with
  | ⟨0, _⟩ => show win0_2.index t (0 : Fin 2) * 64 + 1 * q.val = q'.val; omega
  | ⟨1, _⟩ => show win0_2.index t (1 : Fin 2) * 64 + 1 * k.val = k.val; omega

/-- The second weight's block is the whole matrix. -/
theorem read_wr (c : Dev nD) (t : Fin cfg0.N) (q k : Fin 64) (q' : Fin 64) (hq : q'.val = q.val) :
    iblk0 V c 4 t (ix2 q k) = V c main_arg4 (ix2 q' k) := by
  show V c main_arg4 (((cfg0.win 4).blk t).view.emb (ix2 q k)) = _
  refine congrArg (V c main_arg4) (funext fun a => Fin.ext ?_)
  obtain ⟨-, -, -, -, -, -, -, -, e8, e9, -⟩ := idx_facts t
  match a with
  | ⟨0, _⟩ => show win0_4.index t (0 : Fin 2) * 64 + 1 * q.val = q'.val; omega
  | ⟨1, _⟩ => show win0_4.index t (1 : Fin 2) * 64 + 1 * k.val = k.val; omega

/-- The bias block is the whole row. -/
theorem read_bias (c : Dev nD) (t : Fin cfg0.N) (q : Fin 64) (q' : Fin 64) (hq : q'.val = q.val) :
    iblk0 V c 3 t (ix2 (0 : Fin 1) q) = V c main_v25 (ix2 (0 : Fin 1) q') := by
  show V c main_v25 (((cfg0.win 3).blk t).view.emb (ix2 (0 : Fin 1) q)) = _
  refine congrArg (V c main_v25) (funext fun a => Fin.ext ?_)
  obtain ⟨-, -, -, -, -, -, e6, e7, -⟩ := idx_facts t
  match a with
  | ⟨0, _⟩ => show win0_3.index t (0 : Fin 2) * 1 + 1 * 0 = 0; omega
  | ⟨1, _⟩ => show win0_3.index t (1 : Fin 2) * 64 + 1 * q.val = q'.val; omega

/-- What point `t` writes back is block `t` of the layer of the arrays as the region finds them. -/
theorem flushed (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  refine (pay0_entry (iblk0 V c 0 t) (iblk0 V c 1 t) (iblk0 V c 2 t) (iblk0 V c 4 t) (iblk0 V c 3 t) p q).trans ?_
  obtain ⟨-, -, -, -, -, -, -, -, -, -, e10, e11⟩ := idx_facts t
  have hr : ((((cfg0.win 5).blk t).view.emb (ix2 p q)) 0).val = win0_5.index t (0 : Fin 2) * 10000 + p.val := by
    show win0_5.index t (0 : Fin 2) * 10000 + 1 * p.val = _; omega
  have hq : ((((cfg0.win 5).blk t).view.emb (ix2 p q)) 1).val = q.val := by
    show win0_5.index t (1 : Fin 2) * 64 + 1 * q.val = _; omega
  exact layerEntry_congr _ _ _ _ _ _ _ _ _ _ p _ q _
    (fun k => read_mean V c t p k _ hr) (fun k => read_feat V c t p k _ hr)
    (fun k => read_wl V c t q k _ hq) (fun k => read_wr V c t q k _ hq) (read_bias V c t q _ hq)

/-- An index of the output array is in point `t`'s block iff each coordinate is in the block's range. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every index of the output array lies in some point's block: row `r` in block `r / 10000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE REGION'S OUTPUT ARRAY after its last point: the layer of the arrays as the region finds them. -/
theorem value (c : Dev nD) : (dat0 (F := Ideal) V c).arrAt 5 cfg0.N = G V c :=
  (dat0 (F := Ideal) V c).arrAt_eq_of_cover 5 (G V c) (fun t _ => flushed V c t) cover

end Cert.Sage.Region0

end
-- ==== Proof.SageRegion1.lean ====
import proofs.«131738_j28527172780199_1_alg».proof.Proof.Gen.KernelIdeal.Frame
import proofs.«131738_j28527172780199_1_alg».proof.Proof.SagePayload
import Idealize.ShloMosaic.Lib.Pipeline.Value

/-!
# Layer 2's kernel region: its output array as one function of the arrays it finds

The region walks the 100000 rows in ten blocks of 10000. At block `t` it reads rows `10000·t …` of the mean and of
the features, the whole of both weight matrices and of the bias row, and writes rows `10000·t …` of its output. The
body's entry at `(p, q)` is the layer's entry of those blocks (the body read at an entry), and a block's row `p` is
the array's row `10000·t + p`; so what block `t` writes back is block `t` of ONE whole-array function, the layer of
the arrays as the region finds them. The ten blocks cover every row (row `r` lies in block `r / 10000`), hence the
output array after the region is that function.
-/

set_option maxRecDepth 16384

noncomputable section

namespace Cert.Sage.Region1

open Cert.KernelIdeal Cert.KernelIdeal.Gen Cert.Sage Cert.Sage.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the mean's and the features' blocks move with the output's along the rows;
    the weights and the bias stay at their one block; the output's row block is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The layer of the arrays as the region finds them. -/
abbrev G (c : Dev nD) : S100000x64.Idx → EReal :=
  layer (V c main_v39) (V c main_v26) (V c main_arg5) (V c main_arg7) (fun o => V c main_v40 (ix2 (0 : Fin 1) o))

/-- Row `p` of the mean's block at point `t` is the array's row `10000·t + p`. -/
theorem read_mean (c : Dev nD) (t : Fin cfg1.N) (p : Fin 10000) (k : Fin 64) (r : Fin 100000)
    (hr : r.val = win1_5.index t (0 : Fin 2) * 10000 + p.val) :
    iblk1 V c 0 t (ix2 p k) = V c main_v39 (ix2 r k) := by
  show V c main_v39 (((cfg1.win 0).blk t).view.emb (ix2 p k)) = _
  refine congrArg (V c main_v39) (funext fun a => Fin.ext ?_)
  obtain ⟨e0, e1, -⟩ := idx_facts t
  match a with
  | ⟨0, _⟩ => show win1_0.index t (0 : Fin 2) * 10000 + 1 * p.val = r.val; omega
  | ⟨1, _⟩ => show win1_0.index t (1 : Fin 2) * 64 + 1 * k.val = k.val; omega

/-- The same for the features' block. -/
theorem read_feat (c : Dev nD) (t : Fin cfg1.N) (p : Fin 10000) (k : Fin 64) (r : Fin 100000)
    (hr : r.val = win1_5.index t (0 : Fin 2) * 10000 + p.val) :
    iblk1 V c 1 t (ix2 p k) = V c main_v26 (ix2 r k) := by
  show V c main_v26 (((cfg1.win 1).blk t).view.emb (ix2 p k)) = _
  refine congrArg (V c main_v26) (funext fun a => Fin.ext ?_)
  obtain ⟨-, -, e2, e3, -⟩ := idx_facts t
  match a with
  | ⟨0, _⟩ => show win1_1.index t (0 : Fin 2) * 10000 + 1 * p.val = r.val; omega
  | ⟨1, _⟩ => show win1_1.index t (1 : Fin 2) * 64 + 1 * k.val = k.val; omega

/-- The first weight's block is the whole matrix. -/
theorem read_wl (c : Dev nD) (t : Fin cfg1.N) (q k : Fin 64) (q' : Fin 64) (hq : q'.val = q.val) :
    iblk1 V c 2 t (ix2 q k) = V c main_arg5 (ix2 q' k) := by
  show V c main_arg5 (((cfg1.win 2).blk t).view.emb (ix2 q k)) = _
  refine congrArg (V c main_arg5) (funext fun a => Fin.ext ?_)
  obtain ⟨-, -, -, -, e4, e5, -⟩ := idx_facts t
  match a with
  | ⟨0, _⟩ => show win1_2.index t (0 : Fin 2) * 64 + 1 * q.val = q'.val; omega
  | ⟨1, _⟩ => show win1_2.index t (1 : Fin 2) * 64 + 1 * k.val = k.val; omega

/-- The second weight's block is the whole matrix. -/
theorem read_wr (c : Dev nD) (t : Fin cfg1.N) (q k : Fin 64) (q' : Fin 64) (hq : q'.val = q.val) :
    iblk1 V c 4 t (ix2 q k) = V c main_arg7 (ix2 q' k) := by
  show V c main_arg7 (((cfg1.win 4).blk t).view.emb (ix2 q k)) = _
  refine congrArg (V c main_arg7) (funext fun a => Fin.ext ?_)
  obtain ⟨-, -, -, -, -, -, -, -, e8, e9, -⟩ := idx_facts t
  match a with
  | ⟨0, _⟩ => show win1_4.index t (0 : Fin 2) * 64 + 1 * q.val = q'.val; omega
  | ⟨1, _⟩ => show win1_4.index t (1 : Fin 2) * 64 + 1 * k.val = k.val; omega

/-- The bias block is the whole row. -/
theorem read_bias (c : Dev nD) (t : Fin cfg1.N) (q : Fin 64) (q' : Fin 64) (hq : q'.val = q.val) :
    iblk1 V c 3 t (ix2 (0 : Fin 1) q) = V c main_v40 (ix2 (0 : Fin 1) q') := by
  show V c main_v40 (((cfg1.win 3).blk t).view.emb (ix2 (0 : Fin 1) q)) = _
  refine congrArg (V c main_v40) (funext fun a => Fin.ext ?_)
  obtain ⟨-, -, -, -, -, -, e6, e7, -⟩ := idx_facts t
  match a with
  | ⟨0, _⟩ => show win1_3.index t (0 : Fin 2) * 1 + 1 * 0 = 0; omega
  | ⟨1, _⟩ => show win1_3.index t (1 : Fin 2) * 64 + 1 * q.val = q'.val; omega

/-- What point `t` writes back is block `t` of the layer of the arrays as the region finds them. -/
theorem flushed (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  refine (pay1_entry (iblk1 V c 0 t) (iblk1 V c 1 t) (iblk1 V c 2 t) (iblk1 V c 4 t) (iblk1 V c 3 t) p q).trans ?_
  obtain ⟨-, -, -, -, -, -, -, -, -, -, e10, e11⟩ := idx_facts t
  have hr : ((((cfg1.win 5).blk t).view.emb (ix2 p q)) 0).val = win1_5.index t (0 : Fin 2) * 10000 + p.val := by
    show win1_5.index t (0 : Fin 2) * 10000 + 1 * p.val = _; omega
  have hq : ((((cfg1.win 5).blk t).view.emb (ix2 p q)) 1).val = q.val := by
    show win1_5.index t (1 : Fin 2) * 64 + 1 * q.val = _; omega
  exact layerEntry_congr _ _ _ _ _ _ _ _ _ _ p _ q _
    (fun k => read_mean V c t p k _ hr) (fun k => read_feat V c t p k _ hr)
    (fun k => read_wl V c t q k _ hq) (fun k => read_wr V c t q k _ hq) (read_bias V c t q _ hq)

/-- An index of the output array is in point `t`'s block iff each coordinate is in the block's range. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v41).slice (win1_5.rect t)).set ↔ _
  rw [View.set_slice_whole, Rect.mem_set_unit]
  exact Iff.rfl

/-- Every index of the output array lies in some point's block: row `r` in block `r / 10000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE REGION'S OUTPUT ARRAY after its last point: the layer of the arrays as the region finds them. -/
theorem value (c : Dev nD) : (dat1 (F := Ideal) V c).arrAt 5 cfg1.N = G V c :=
  (dat1 (F := Ideal) V c).arrAt_eq_of_cover 5 (G V c) (fun t _ => flushed V c t) cover

end Cert.Sage.Region1

end
-- ==== Proof.SageRegion2.lean ====
import proofs.«131738_j28527172780199_1_alg».proof.Proof.Gen.KernelIdeal.Frame
import proofs.«131738_j28527172780199_1_alg».proof.Proof.SagePayload
import Idealize.ShloMosaic.Lib.Pipeline.Value

/-!
# Layer 3's kernel region: its output array as one function of the arrays it finds

The region walks the 100000 rows in ten blocks of 10000. At block `t` it reads rows `10000·t …` of the mean and of
the features, the whole of both weight matrices and of the bias row, and writes rows `10000·t …` of its output. The
body's entry at `(p, q)` is the layer's entry of those blocks (the body read at an entry), and a block's row `p` is
the array's row `10000·t + p`; so what block `t` writes back is block `t` of ONE whole-array function, the layer of
the arrays as the region finds them. The ten blocks cover every row (row `r` lies in block `r / 10000`), hence the
output array after the region is that function.
-/

set_option maxRecDepth 16384

noncomputable section

namespace Cert.Sage.Region2

open Cert.KernelIdeal Cert.KernelIdeal.Gen Cert.Sage Cert.Sage.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the mean's and the features' blocks move with the output's along the rows;
    the weights and the bias stay at their one block; the output's row block is the point's number. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- The layer of the arrays as the region finds them. -/
abbrev G (c : Dev nD) : S100000x64.Idx → EReal :=
  layer (V c main_v54) (V c main_v41) (V c main_arg8) (V c main_arg10) (fun o => V c main_v55 (ix2 (0 : Fin 1) o))

/-- Row `p` of the mean's block at point `t` is the array's row `10000·t + p`. -/
theorem read_mean (c : Dev nD) (t : Fin cfg2.N) (p : Fin 10000) (k : Fin 64) (r : Fin 100000)
    (hr : r.val = win2_5.index t (0 : Fin 2) * 10000 + p.val) :
    iblk2 V c 0 t (ix2 p k) = V c main_v54 (ix2 r k) := by
  show V c main_v54 (((cfg2.win 0).blk t).view.emb (ix2 p k)) = _
  refine congrArg (V c main_v54) (funext fun a => Fin.ext ?_)
  obtain ⟨e0, e1, -⟩ := idx_facts t
  match a with
  | ⟨0, _⟩ => show win2_0.index t (0 : Fin 2) * 10000 + 1 * p.val = r.val; omega
  | ⟨1, _⟩ => show win2_0.index t (1 : Fin 2) * 64 + 1 * k.val = k.val; omega

/-- The same for the features' block. -/
theorem read_feat (c : Dev nD) (t : Fin cfg2.N) (p : Fin 10000) (k : Fin 64) (r : Fin 100000)
    (hr : r.val = win2_5.index t (0 : Fin 2) * 10000 + p.val) :
    iblk2 V c 1 t (ix2 p k) = V c main_v41 (ix2 r k) := by
  show V c main_v41 (((cfg2.win 1).blk t).view.emb (ix2 p k)) = _
  refine congrArg (V c main_v41) (funext fun a => Fin.ext ?_)
  obtain ⟨-, -, e2, e3, -⟩ := idx_facts t
  match a with
  | ⟨0, _⟩ => show win2_1.index t (0 : Fin 2) * 10000 + 1 * p.val = r.val; omega
  | ⟨1, _⟩ => show win2_1.index t (1 : Fin 2) * 64 + 1 * k.val = k.val; omega

/-- The first weight's block is the whole matrix. -/
theorem read_wl (c : Dev nD) (t : Fin cfg2.N) (q k : Fin 64) (q' : Fin 64) (hq : q'.val = q.val) :
    iblk2 V c 2 t (ix2 q k) = V c main_arg8 (ix2 q' k) := by
  show V c main_arg8 (((cfg2.win 2).blk t).view.emb (ix2 q k)) = _
  refine congrArg (V c main_arg8) (funext fun a => Fin.ext ?_)
  obtain ⟨-, -, -, -, e4, e5, -⟩ := idx_facts t
  match a with
  | ⟨0, _⟩ => show win2_2.index t (0 : Fin 2) * 64 + 1 * q.val = q'.val; omega
  | ⟨1, _⟩ => show win2_2.index t (1 : Fin 2) * 64 + 1 * k.val = k.val; omega

/-- The second weight's block is the whole matrix. -/
theorem read_wr (c : Dev nD) (t : Fin cfg2.N) (q k : Fin 64) (q' : Fin 64) (hq : q'.val = q.val) :
    iblk2 V c 4 t (ix2 q k) = V c main_arg10 (ix2 q' k) := by
  show V c main_arg10 (((cfg2.win 4).blk t).view.emb (ix2 q k)) = _
  refine congrArg (V c main_arg10) (funext fun a => Fin.ext ?_)
  obtain ⟨-, -, -, -, -, -, -, -, e8, e9, -⟩ := idx_facts t
  match a with
  | ⟨0, _⟩ => show win2_4.index t (0 : Fin 2) * 64 + 1 * q.val = q'.val; omega
  | ⟨1, _⟩ => show win2_4.index t (1 : Fin 2) * 64 + 1 * k.val = k.val; omega

/-- The bias block is the whole row. -/
theorem read_bias (c : Dev nD) (t : Fin cfg2.N) (q : Fin 64) (q' : Fin 64) (hq : q'.val = q.val) :
    iblk2 V c 3 t (ix2 (0 : Fin 1) q) = V c main_v55 (ix2 (0 : Fin 1) q') := by
  show V c main_v55 (((cfg2.win 3).blk t).view.emb (ix2 (0 : Fin 1) q)) = _
  refine congrArg (V c main_v55) (funext fun a => Fin.ext ?_)
  obtain ⟨-, -, -, -, -, -, e6, e7, -⟩ := idx_facts t
  match a with
  | ⟨0, _⟩ => show win2_3.index t (0 : Fin 2) * 1 + 1 * 0 = 0; omega
  | ⟨1, _⟩ => show win2_3.index t (1 : Fin 2) * 64 + 1 * q.val = q'.val; omega

/-- What point `t` writes back is block `t` of the layer of the arrays as the region finds them. -/
theorem flushed (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  refine (pay2_entry (iblk2 V c 0 t) (iblk2 V c 1 t) (iblk2 V c 2 t) (iblk2 V c 4 t) (iblk2 V c 3 t) p q).trans ?_
  obtain ⟨-, -, -, -, -, -, -, -, -, -, e10, e11⟩ := idx_facts t
  have hr : ((((cfg2.win 5).blk t).view.emb (ix2 p q)) 0).val = win2_5.index t (0 : Fin 2) * 10000 + p.val := by
    show win2_5.index t (0 : Fin 2) * 10000 + 1 * p.val = _; omega
  have hq : ((((cfg2.win 5).blk t).view.emb (ix2 p q)) 1).val = q.val := by
    show win2_5.index t (1 : Fin 2) * 64 + 1 * q.val = _; omega
  exact layerEntry_congr _ _ _ _ _ _ _ _ _ _ p _ q _
    (fun k => read_mean V c t p k _ hr) (fun k => read_feat V c t p k _ hr)
    (fun k => read_wl V c t q k _ hq) (fun k => read_wr V c t q k _ hq) (read_bias V c t q _ hq)

/-- An index of the output array is in point `t`'s block iff each coordinate is in the block's range. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v56).slice (win2_5.rect t)).set ↔ _
  rw [View.set_slice_whole, Rect.mem_set_unit]
  exact Iff.rfl

/-- Every index of the output array lies in some point's block: row `r` in block `r / 10000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE REGION'S OUTPUT ARRAY after its last point: the layer of the arrays as the region finds them. -/
theorem value (c : Dev nD) : (dat2 (F := Ideal) V c).arrAt 5 cfg2.N = G V c :=
  (dat2 (F := Ideal) V c).arrAt_eq_of_cover 5 (G V c) (fun t _ => flushed V c t) cover

end Cert.Sage.Region2

end
-- ==== Proof.SageRegion3.lean ====
import proofs.«131738_j28527172780199_1_alg».proof.Proof.Gen.KernelIdeal.Frame
import proofs.«131738_j28527172780199_1_alg».proof.Proof.SagePayload
import Idealize.ShloMosaic.Lib.Pipeline.Value

/-!
# The output projection's kernel region: its output column as one function of the arrays it finds

The region walks the 100000 rows in ten blocks of 10000; at block `t` it reads rows `10000·t …` of the features, the
one weight row and the one bias entry, and writes rows `10000·t …` of the output column. The body's entry at row `p`
is the projection's entry of those blocks, and a block's row `p` is the array's row `10000·t + p`: block `t` of the
output is block `t` of ONE whole-array function. The ten blocks cover the column.
-/

set_option maxRecDepth 16384

noncomputable section

namespace Cert.Sage.Region3

open Cert.KernelIdeal Cert.KernelIdeal.Gen Cert.Sage Cert.Sage.Payload
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' block moves with the output's along the rows; the weight row
    and the bias stay at their one block. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- The projection of the arrays as the region finds them. -/
abbrev G (c : Dev nD) : S100000x1.Idx → EReal :=
  proj (V c main_v56) (V c main_arg11) (V c main_v57 (ix2 (0 : Fin 1) (0 : Fin 1)))

/-- Row `p` of the features' block at point `t` is the array's row `10000·t + p`. -/
theorem read_feat (c : Dev nD) (t : Fin cfg3.N) (p : Fin 10000) (k : Fin 64) (r : Fin 100000)
    (hr : r.val = win3_3.index t (0 : Fin 2) * 10000 + p.val) :
    iblk3 V c 0 t (ix2 p k) = V c main_v56 (ix2 r k) := by
  show V c main_v56 (((cfg3.win 0).blk t).view.emb (ix2 p k)) = _
  refine congrArg (V c main_v56) (funext fun a => Fin.ext ?_)
  obtain ⟨e0, e1, -⟩ := idx_facts t
  match a with
  | ⟨0, _⟩ => show win3_0.index t (0 : Fin 2) * 10000 + 1 * p.val = r.val; omega
  | ⟨1, _⟩ => show win3_0.index t (1 : Fin 2) * 64 + 1 * k.val = k.val; omega

/-- The weight's block is the whole row. -/
theorem read_w (c : Dev nD) (t : Fin cfg3.N) (k : Fin 64) :
    iblk3 V c 1 t (ix2 (0 : Fin 1) k) = V c main_arg11 (ix2 (0 : Fin 1) k) := by
  show V c main_arg11 (((cfg3.win 1).blk t).view.emb (ix2 (0 : Fin 1) k)) = _
  refine congrArg (V c main_arg11) (funext fun a => Fin.ext ?_)
  obtain ⟨-, -, e2, e3, -⟩ := idx_facts t
  match a with
  | ⟨0, _⟩ => show win3_1.index t (0 : Fin 2) * 1 + 1 * 0 = 0; omega
  | ⟨1, _⟩ => show win3_1.index t (1 : Fin 2) * 64 + 1 * k.val = k.val; omega

/-- The bias block is the one entry. -/
theorem read_bias (c : Dev nD) (t : Fin cfg3.N) :
    iblk3 V c 2 t (ix2 (0 : Fin 1) (0 : Fin 1)) = V c main_v57 (ix2 (0 : Fin 1) (0 : Fin 1)) := by
  show V c main_v57 (((cfg3.win 2).blk t).view.emb (ix2 (0 : Fin 1) (0 : Fin 1))) = _
  refine congrArg (V c main_v57) (funext fun a => Fin.ext ?_)
  obtain ⟨-, -, -, -, e4, e5, -⟩ := idx_facts t
  match a with
  | ⟨0, _⟩ => show win3_2.index t (0 : Fin 2) * 1 + 1 * 0 = 0; omega
  | ⟨1, _⟩ => show win3_2.index t (1 : Fin 2) * 1 + 1 * 0 = 0; omega

/-- What point `t` writes back is block `t` of the projection of the arrays as the region finds them. -/
theorem flushed (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x64) hz, View.ld_unit_zero (S := S1x1) hz]
  funext j
  obtain ⟨p, u, rfl⟩ : ∃ (p : Fin 10000) (u : Fin 1), j = ix2 p u := ⟨j 0, j 1, eq_ix2 (n0 := 10000) (n1 := 1) j⟩
  refine (pay3_entry (iblk3 V c 0 t) (iblk3 V c 1 t) (iblk3 V c 2 t) p u).trans ?_
  obtain ⟨-, -, -, -, -, -, e6, e7⟩ := idx_facts t
  have hr : ((((cfg3.win 3).blk t).view.emb (ix2 p u)) 0).val = win3_3.index t (0 : Fin 2) * 10000 + p.val := by
    show win3_3.index t (0 : Fin 2) * 10000 + 1 * p.val = _; omega
  exact projEntry_congr _ _ _ _ _ _ p _
    (fun k => read_feat V c t p k _ hr) (fun k => read_w V c t k) (read_bias V c t)

/-- An index of the output column is in point `t`'s block iff each coordinate is in the block's range. -/
theorem mem_blk (t : Fin cfg3.N) (i : S100000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v58).slice (win3_3.rect t)).set ↔ _
  rw [View.set_slice_whole, Rect.mem_set_unit]
  exact Iff.rfl

/-- Every index of the output column lies in some point's block: row `r` in block `r / 10000`. -/
theorem cover (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 1 ≤ (i 1).val ∧ (i 1).val < win3_3.index t (1 : Fin 2) * 1 + 1; omega

/-- THE REGION'S OUTPUT COLUMN after its last point: the projection of the arrays as the region finds them. -/
theorem value (c : Dev nD) : (dat3 (F := Ideal) V c).arrAt 3 cfg3.N = G V c :=
  (dat3 (F := Ideal) V c).arrAt_eq_of_cover 3 (G V c) (fun t _ => flushed V c t) cover

end Cert.Sage.Region3

end
-- ==== Proof.RefLayers.lean ====
import proofs.«131738_j28527172780199_1_alg».proof.Proof.Gen.ReferenceIdeal.Read
import proofs.«131738_j28527172780199_1_alg».proof.Proof.SageSpec
import Idealize.ShloMosaic.Lib.ValueIdx
import Idealize.ShloMosaic.Lib.IdealHost
import Idealize.ShloMosaic.PureOps.Ideal.Laws

/-!
# The reference's layers, read as the specification

The reference computes, per layer: the sum of the neighbours' feature rows (`agg`), divided row by row by the degree
clamped below by one (`meanR`); then the mean against the first weight transposed, plus the bias broadcast over the
rows, plus the features against the second weight transposed (`pre`), and the leaky rectifier (`act`). Each is named
here as a function of arbitrary operand arrays, over the reference's own operations, and read at an entry: a product
with a transposed weight is `∑ₖ y r k · W o k`, so `act (pre M H Wl Wr b)` is the specification's layer of the same
operands. `meanK` is the other spelling of the mean — the sum times the reciprocal of the clamped degree — and equals
`meanR` because the clamped degree is never zero. The reference's own stages are these functions of the arguments,
by unfolding their definitions.
-/

set_option maxRecDepth 16384

noncomputable section

namespace Cert.Sage.Ref

open Cert.ReferenceIdeal Cert.ReferenceIdeal.Gen Cert.ReferenceIdeal.Read Cert.Sage
open Idealize.ShloMosaic Idealize.ShloMosaic.TcCoe Idealize.ShloMosaic.ValueIdx Idealize.ShloMosaic.StableHlo

/-- A layer's products: 100000 rows by 64 channels, contracting the 64 features. -/
abbrev DL := dot_S100000x64_S64x64_S100000x64_1_0_0_1_n_n
/-- The projection's product: 100000 rows by one column. -/
abbrev DP := dot_S100000x64_S64x1_S100000x1_1_0_0_1_n_n

/-- A layer's product read at an index: the sum over the contracted feature of the operands' products. -/
theorem dotL_apply (y0 : FVec Ideal S100000x64 .f32) (y1 : FVec Ideal S64x64 .f32) (i : S100000x64.Idx) :
    Host.dotGeneral (F := Ideal) (φ₁ := .f32) (φ₂ := .f32) DL none y0 y1 i = ∑ k : Fin 64, y0 (lidx_main_v24 i k) * y1 (ridx_main_v24 i k) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v24 i k := funext fun a => Fin.ext (by
    match a with
    | ⟨0, _⟩ => exact lhs_main_v24_0 _ _
    | ⟨1, _⟩ => exact (lhs_main_v24_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v24 i k := funext fun a => Fin.ext (by
    match a with
    | ⟨0, _⟩ => exact (rhs_main_v24_0 _ _).trans hk
    | ⟨1, _⟩ => exact rhs_main_v24_1 _ _)
  rw [el, er]

/-- The projection's product read at an index. -/
theorem dotP_apply (y0 : FVec Ideal S100000x64 .f32) (y1 : FVec Ideal S64x1 .f32) (i : S100000x1.Idx) :
    Host.dotGeneral (F := Ideal) (φ₁ := .f32) (φ₂ := .f32) DP none y0 y1 i = ∑ k : Fin 64, y0 (lidx_main_v101 i k) * y1 (ridx_main_v101 i k) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v101 i k := funext fun a => Fin.ext (by
    match a with
    | ⟨0, _⟩ => exact lhs_main_v101_0 _ _
    | ⟨1, _⟩ => exact (lhs_main_v101_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v101 i k := funext fun a => Fin.ext (by
    match a with
    | ⟨0, _⟩ => exact (rhs_main_v101_0 _ _).trans hk
    | ⟨1, _⟩ => exact rhs_main_v101_1 _ _)
  rw [el, er]

/-! ## The operations of one layer, of arbitrary operands -/

/-- The neighbours' rows summed into each node: gather the rows at the (wrapped) source indices, scatter-add them at
    the destination indices into zeros. -/
def agg (h : FVec Ideal S100000x64 .f32) (src dst : IVec S1600000 32) : FVec Ideal S100000x64 .f32 :=
  Host.scatterAdd scatter_S100000x64_S1600000x1_S1600000x64_1_0_0_1 (val_main_v11 (F := Ideal))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (val_main_v4 (F := Ideal))) (addi src (val_main_v6 (F := Ideal))) src)))

/-- A per-row vector spread over the 64 channels. -/
def spread (y : FVec Ideal S100000 .f32) : FVec Ideal S100000x64 .f32 :=
  broadcastInDim S100000x64 ![0, 1] bcast_S100000x1_S100000x64_0_1 (broadcastInDim S100000x1 ![0] bcast_S100000_S100000x1_0 y)

/-- The mean as the reference spells it: the sum divided by the clamped degree. -/
def meanR (a : FVec Ideal S100000x64 .f32) (d : FVec Ideal S100000 .f32) : FVec Ideal S100000x64 .f32 :=
  Host.divf (F := Ideal) (φ := .f32) a (spread d)

/-- The mean as a sum times a per-row factor. -/
def scaled (a : FVec Ideal S100000x64 .f32) (f : FVec Ideal S100000 .f32) : FVec Ideal S100000x64 .f32 :=
  mulf (F := Ideal) (φ := .f32) a (spread f)

/-- The reciprocal of the clamped degree. -/
def recip (d : FVec Ideal S100000 .f32) : FVec Ideal S100000 .f32 :=
  Host.divf (F := Ideal) (φ := .f32) (val_main_v18 (F := Ideal)) d

/-- What a layer holds before the rectifier. -/
def pre (M H : FVec Ideal S100000x64 .f32) (Wl Wr : FVec Ideal S64x64 .f32) (b : FVec Ideal S64 .f32) : FVec Ideal S100000x64 .f32 :=
  addf (F := Ideal) (φ := .f32) (addf (F := Ideal) (φ := .f32) (Host.dotGeneral (F := Ideal) (φ₁ := .f32) (φ₂ := .f32) DL none M (val_main_v23 (F := Ideal) Wl)) (val_main_v26 (F := Ideal) b))
    (Host.dotGeneral (F := Ideal) (φ₁ := .f32) (φ₂ := .f32) DL none H (val_main_v28 (F := Ideal) Wr))

/-- The leaky rectifier over an array. -/
def act (z : FVec Ideal S100000x64 .f32) : FVec Ideal S100000x64 .f32 :=
  select (cmpf .oge z (val_main_v31 (F := Ideal))) z (mulf (F := Ideal) (φ := .f32) (val_main_v33 (F := Ideal)) z)

/-- The projection. -/
def projR (H : FVec Ideal S100000x64 .f32) (w : FVec Ideal S1x64 .f32) (b : FVec Ideal S1 .f32) : FVec Ideal S100000x1 .f32 :=
  addf (F := Ideal) (φ := .f32) (Host.dotGeneral (F := Ideal) (φ₁ := .f32) (φ₂ := .f32) DP none H (val_main_v100 (F := Ideal) w)) (val_main_v103 (F := Ideal) b)

/-! ## Read at an entry -/

theorem spread_apply (y : FVec Ideal S100000 .f32) (i : S100000x64.Idx) : spread y i = y (ix1 (n := 100000) (i 0)) := by
  unfold spread
  refine (broadcastInDim_apply _ bcast_S100000x1_S100000x64_0_1 _ i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  refine (broadcastInDim_apply _ bcast_S100000_S100000x1_0 y (idx_main_v21 i) (idx_main_v20 (idx_main_v21 i)) (fun a => match a with
    | ⟨0, _⟩ => by show (i 0).val = if (100000 : Nat) = 1 then 0 else (i 0).val; rw [if_neg (by decide)])).trans ?_
  exact congrArg y (funext fun a => Fin.ext (by match a with | ⟨0, _⟩ => rfl))

/-- The two spellings of the mean agree wherever the divisor is never zero. -/
theorem scaled_recip (a : FVec Ideal S100000x64 .f32) (d : FVec Ideal S100000 .f32) (hd : ∀ j, d j ≠ 0) :
    scaled a (recip d) = meanR a d := by
  funext i
  show a i * spread (recip d) i = Ideal.div (a i) (spread d i)
  rw [spread_apply, spread_apply]
  show a i * Ideal.div (val_main_v18 (F := Ideal) _) (d _) = _
  rw [val_main_v18_apply]
  show a i * Ideal.div (Ideal.ofBits .f32 0x3F800000#32) (d _) = _
  rw [Idealize.ShloMosaic.Ideal.ofBits_one_f32]
  exact mul_recip _ _ (hd _)

/-- The clamped degree is never zero. -/
theorem clamp_ne_zero (x1 : IVec S2x1600000 32) (j : S100000.Idx) : val_main_v19 (F := Ideal) x1 j ≠ 0 := by
  rw [val_main_v19_apply, val_main_v18_apply]
  show max _ (Ideal.ofBits .f32 0x3F800000#32) ≠ 0
  rw [Idealize.ShloMosaic.Ideal.ofBits_one_f32]
  exact max_one_ne_zero _

theorem pre_apply (M H : FVec Ideal S100000x64 .f32) (Wl Wr : FVec Ideal S64x64 .f32) (b : FVec Ideal S64 .f32) (i : S100000x64.Idx) :
    pre M H Wl Wr b i = preAct M H Wl Wr (fun o => b (ix1 o)) (i 0) (i 1) := by
  have e1 : ∀ k : Fin 64, lidx_main_v24 i k = ix2 (n0 := 100000) (n1 := 64) (i 0) k := fun k =>
    funext fun a => Fin.ext (by match a with | ⟨0, _⟩ => rfl | ⟨1, _⟩ => rfl)
  have e2 : ∀ (W : FVec Ideal S64x64 .f32) (k : Fin 64), W (idx_main_v23 (ridx_main_v24 i k)) = W (ix2 (n0 := 64) (n1 := 64) (i 1) k) := fun W k =>
    congrArg W (funext fun a => Fin.ext (by match a with | ⟨0, _⟩ => rfl | ⟨1, _⟩ => rfl))
  have e3 : ∀ (W : FVec Ideal S64x64 .f32) (k : Fin 64), W (idx_main_v28 (ridx_main_v24 i k)) = W (ix2 (n0 := 64) (n1 := 64) (i 1) k) := fun W k =>
    congrArg W (funext fun a => Fin.ext (by match a with | ⟨0, _⟩ => rfl | ⟨1, _⟩ => rfl))
  show (Host.dotGeneral (F := Ideal) (φ₁ := .f32) (φ₂ := .f32) DL none M (val_main_v23 (F := Ideal) Wl) i + val_main_v26 (F := Ideal) b i)
      + Host.dotGeneral (F := Ideal) (φ₁ := .f32) (φ₂ := .f32) DL none H (val_main_v28 (F := Ideal) Wr) i = _
  rw [dotL_apply, dotL_apply, val_main_v26_apply, val_main_v25_apply]
  unfold preAct
  refine congrArg₂ (· + ·) (congrArg₂ (· + ·) (Finset.sum_congr rfl fun k _ => ?_) ?_) (Finset.sum_congr rfl fun k _ => ?_)
  · rw [e1 k, val_main_v23_apply, e2 Wl k]
  · exact congrArg b (funext fun a => Fin.ext (by match a with | ⟨0, _⟩ => rfl))
  · rw [e1 k, val_main_v28_apply, e3 Wr k]

theorem act_apply (z : FVec Ideal S100000x64 .f32) (i : S100000x64.Idx) : act z i = leaky (z i) := by
  show Scalar.select (FloatOps.cmpf .oge (z i) (val_main_v31 (F := Ideal) i)) (z i) (FloatOps.mulf (val_main_v33 (F := Ideal) i) (z i)) = _
  rw [val_main_v31_apply, val_main_v33_apply]
  rfl

/-- A reference layer of arbitrary operands IS the specification's layer of them. -/
theorem layer_eq (M H : FVec Ideal S100000x64 .f32) (Wl Wr : FVec Ideal S64x64 .f32) (b : FVec Ideal S64 .f32) :
    act (pre M H Wl Wr b) = layer M H Wl Wr (fun o => b (ix1 o)) := by
  funext i
  rw [act_apply, pre_apply]
  rfl

/-- The reference's projection of arbitrary operands IS the specification's. -/
theorem proj_eq (H : FVec Ideal S100000x64 .f32) (w : FVec Ideal S1x64 .f32) (b : FVec Ideal S1 .f32) :
    projR H w b = proj H w (b (ix1 (0 : Fin 1))) := by
  funext i
  have hi1 : (i 1).val < 1 := idx2_lt1 i
  show Host.dotGeneral (F := Ideal) (φ₁ := .f32) (φ₂ := .f32) DP none H (val_main_v100 (F := Ideal) w) i + val_main_v103 (F := Ideal) b i = _
  rw [dotP_apply, val_main_v103_apply, val_main_v102_apply]
  unfold proj projEntry
  refine congrArg₂ (· + ·) (Finset.sum_congr rfl fun k _ => ?_) ?_
  · rw [val_main_v100_apply]
    refine congrArg₂ (· * ·) (congrArg H (funext fun a => Fin.ext (by match a with | ⟨0, _⟩ => rfl | ⟨1, _⟩ => rfl))) ?_
    exact congrArg w (funext fun a => Fin.ext (by
      match a with
      | ⟨0, _⟩ => show (i 1).val = 0; omega
      | ⟨1, _⟩ => rfl))
  · exact congrArg b (funext fun a => Fin.ext (by match a with | ⟨0, _⟩ => rfl))

/-! ## The reference's stages are these functions of the arguments -/

section Stages
variable (x0 : FVec Ideal S100000x64 .f32) (x1 : IVec S2x1600000 32) (x2 : FVec Ideal S64x64 .f32) (x3 : FVec Ideal S64 .f32) (x4 x5 : FVec Ideal S64x64 .f32) (x6 : FVec Ideal S64 .f32) (x7 x8 : FVec Ideal S64x64 .f32) (x9 : FVec Ideal S64 .f32) (x10 : FVec Ideal S64x64 .f32) (x11 : FVec Ideal S1x64 .f32) (x12 : FVec Ideal S1 .f32)

/-- The sources, the destinations and the clamped degree are functions of the edge list alone. -/
abbrev src := val_main_v1 (F := Ideal) x1
abbrev dst := val_main_v3 (F := Ideal) x1
abbrev deg := val_main_v19 (F := Ideal) x1

/-- Layer 1's output. -/
abbrev h1 := val_main_v35 (F := Ideal) x0 x1 x2 x3 x4
/-- Layer 2's output. -/
abbrev h2 := val_main_v67 (F := Ideal) x0 x1 x2 x3 x4 x5 x6 x7
/-- Layer 3's output. -/
abbrev h3 := val_main_v99 (F := Ideal) x0 x1 x2 x3 x4 x5 x6 x7 x8 x9 x10

theorem stage1 : h1 x0 x1 x2 x3 x4 = act (pre (meanR (agg x0 (src x1) (dst x1)) (deg x1)) x0 x2 x4 x3) := rfl

theorem stage2 : h2 x0 x1 x2 x3 x4 x5 x6 x7
    = act (pre (meanR (agg (h1 x0 x1 x2 x3 x4) (src x1) (dst x1)) (deg x1)) (h1 x0 x1 x2 x3 x4) x5 x7 x6) := rfl

theorem stage3 : h3 x0 x1 x2 x3 x4 x5 x6 x7 x8 x9 x10
    = act (pre (meanR (agg (h2 x0 x1 x2 x3 x4 x5 x6 x7) (src x1) (dst x1)) (deg x1)) (h2 x0 x1 x2 x3 x4 x5 x6 x7) x8 x10 x9) := rfl

theorem stage4 : val_main_v104 (F := Ideal) x0 x1 x2 x3 x4 x5 x6 x7 x8 x9 x10 x11 x12
    = projR (h3 x0 x1 x2 x3 x4 x5 x6 x7 x8 x9 x10) x11 x12 := rfl

end Stages

end Cert.Sage.Ref

end
-- ==== Proof.SageKernel.lean ====
import proofs.«131738_j28527172780199_1_alg».proof.Proof.Gen.KernelIdeal.Frame
import proofs.«131738_j28527172780199_1_alg».proof.Proof.SageRegion0
import proofs.«131738_j28527172780199_1_alg».proof.Proof.SageRegion1
import proofs.«131738_j28527172780199_1_alg».proof.Proof.SageRegion2
import proofs.«131738_j28527172780199_1_alg».proof.Proof.SageRegion3
import proofs.«131738_j28527172780199_1_alg».proof.Proof.RefLayers
import Idealize.ShloMosaic.Lib.StableHlo.Run
import Idealize.ShloMosaic.Lib.Pipeline.Value

/-!
# The kernel program's result, boundary by boundary

The program alternates four stretches of host operations with four kernel regions. At each of the nine boundaries
the buffers hold a known function of the launched arguments:

* after a stretch, each buffer it wrote holds its operations' value of what the boundary before held — the
  neighbours' sum times the reciprocal of the clamped degree for the mean, the bias recast as a row —, and every other
  buffer is kept;
* after a region, its output array holds the layer of the arrays the region found (the region's value), and every
  buffer that is not one of its arrays is kept.

The host operations are the reference's own (the same gather, scatter-add, broadcasts), so each boundary's contents
are written with the reference's functions of the arguments; a region's layer of a mean spelt "times the reciprocal"
is the reference's layer of the mean spelt "divided by" because the clamped degree is never zero. Walking the
boundaries in order, region `k`'s output is the reference's layer `k + 1`, and the last region's column is the
reference's result.
-/

set_option maxRecDepth 16384

noncomputable section

namespace Cert.Sage.Kernel

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Argument 0 as launched. -/
abbrev X0 : FVec Ideal Cert.ReferenceIdeal.S100000x64 .f32 := m ((c : Thread nD τ).loc main_arg0)
/-- Argument 1 as launched. -/
abbrev X1 : IVec Cert.ReferenceIdeal.S2x1600000 32 := m ((c : Thread nD τ).loc main_arg1)
/-- Argument 2 as launched. -/
abbrev X2 : FVec Ideal Cert.ReferenceIdeal.S64x64 .f32 := m ((c : Thread nD τ).loc main_arg2)
/-- Argument 3 as launched. -/
abbrev X3 : FVec Ideal Cert.ReferenceIdeal.S64 .f32 := m ((c : Thread nD τ).loc main_arg3)
/-- Argument 4 as launched. -/
abbrev X4 : FVec Ideal Cert.ReferenceIdeal.S64x64 .f32 := m ((c : Thread nD τ).loc main_arg4)
/-- Argument 5 as launched. -/
abbrev X5 : FVec Ideal Cert.ReferenceIdeal.S64x64 .f32 := m ((c : Thread nD τ).loc main_arg5)
/-- Argument 6 as launched. -/
abbrev X6 : FVec Ideal Cert.ReferenceIdeal.S64 .f32 := m ((c : Thread nD τ).loc main_arg6)
/-- Argument 7 as launched. -/
abbrev X7 : FVec Ideal Cert.ReferenceIdeal.S64x64 .f32 := m ((c : Thread nD τ).loc main_arg7)
/-- Argument 8 as launched. -/
abbrev X8 : FVec Ideal Cert.ReferenceIdeal.S64x64 .f32 := m ((c : Thread nD τ).loc main_arg8)
/-- Argument 9 as launched. -/
abbrev X9 : FVec Ideal Cert.ReferenceIdeal.S64 .f32 := m ((c : Thread nD τ).loc main_arg9)
/-- Argument 10 as launched. -/
abbrev X10 : FVec Ideal Cert.ReferenceIdeal.S64x64 .f32 := m ((c : Thread nD τ).loc main_arg10)
/-- Argument 11 as launched. -/
abbrev X11 : FVec Ideal Cert.ReferenceIdeal.S1x64 .f32 := m ((c : Thread nD τ).loc main_arg11)
/-- Argument 12 as launched. -/
abbrev X12 : FVec Ideal Cert.ReferenceIdeal.S1 .f32 := m ((c : Thread nD τ).loc main_arg12)

/-- A 64-vector recast as one row, read at the row's entry `o`. -/
theorem reshape_row (x : FVec Ideal S64 .f32) (o : Fin 64) :
    shapeCast S1x64 x shapeCasts_S64_S1x64 (ix2 (0 : Fin 1) o) = x (ix1 o) :=
  shapeCast_apply x shapeCasts_S64_S1x64 (ix2 (0 : Fin 1) o) (ix1 o) (by
    rw [Shape.rowMajor_val_one, Shape.rowMajor_val_two]
    show o.val = 0 * 64 + o.val
    omega)

/-- A 1-vector recast as a 1 × 1 table, read at its entry. -/
theorem reshape_one (x : FVec Ideal S1 .f32) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by
    rw [Shape.rowMajor_val_one, Shape.rowMajor_val_two]
    show 0 = 0 * 1 + 0
    omega)

/-! ## Buffers kept from boundary to boundary -/

theorem at1_main_v1 : W1 m ρ c (Proc.devRef .tc main_v1) = (Ref.src (X1 m c)) := by
  show StableHlo.after hostOps0 (W0 m ρ c) (Proc.devRef .tc main_v1) = _
  after_results_simp <;> rfl
theorem at2_main_v1 : W2 m ρ c (Proc.devRef .tc main_v1) = (Ref.src (X1 m c)) :=
  (W2_of_ne m ρ c main_v1 (by decide)).trans (at1_main_v1 m ρ c)
theorem at3_main_v1 : W3 m ρ c (Proc.devRef .tc main_v1) = (Ref.src (X1 m c)) := by
  show StableHlo.after hostOps1 (W2 m ρ c) (Proc.devRef .tc main_v1) = _
  after_results_simp
  exact at2_main_v1 m ρ c
theorem at4_main_v1 : W4 m ρ c (Proc.devRef .tc main_v1) = (Ref.src (X1 m c)) :=
  (W4_of_ne m ρ c main_v1 (by decide)).trans (at3_main_v1 m ρ c)
theorem at1_main_v3 : W1 m ρ c (Proc.devRef .tc main_v3) = (Ref.dst (X1 m c)) := by
  show StableHlo.after hostOps0 (W0 m ρ c) (Proc.devRef .tc main_v3) = _
  after_results_simp <;> rfl
theorem at2_main_v3 : W2 m ρ c (Proc.devRef .tc main_v3) = (Ref.dst (X1 m c)) :=
  (W2_of_ne m ρ c main_v3 (by decide)).trans (at1_main_v3 m ρ c)
theorem at3_main_v3 : W3 m ρ c (Proc.devRef .tc main_v3) = (Ref.dst (X1 m c)) := by
  show StableHlo.after hostOps1 (W2 m ρ c) (Proc.devRef .tc main_v3) = _
  after_results_simp
  exact at2_main_v3 m ρ c
theorem at4_main_v3 : W4 m ρ c (Proc.devRef .tc main_v3) = (Ref.dst (X1 m c)) :=
  (W4_of_ne m ρ c main_v3 (by decide)).trans (at3_main_v3 m ρ c)
theorem at1_main_v11 : W1 m ρ c (Proc.devRef .tc main_v11) = (Ref.recip (Ref.deg (X1 m c))) := by
  show StableHlo.after hostOps0 (W0 m ρ c) (Proc.devRef .tc main_v11) = _
  after_results_simp <;> rfl
theorem at2_main_v11 : W2 m ρ c (Proc.devRef .tc main_v11) = (Ref.recip (Ref.deg (X1 m c))) :=
  (W2_of_ne m ρ c main_v11 (by decide)).trans (at1_main_v11 m ρ c)
theorem at3_main_v11 : W3 m ρ c (Proc.devRef .tc main_v11) = (Ref.recip (Ref.deg (X1 m c))) := by
  show StableHlo.after hostOps1 (W2 m ρ c) (Proc.devRef .tc main_v11) = _
  after_results_simp
  exact at2_main_v11 m ρ c
theorem at4_main_v11 : W4 m ρ c (Proc.devRef .tc main_v11) = (Ref.recip (Ref.deg (X1 m c))) :=
  (W4_of_ne m ρ c main_v11 (by decide)).trans (at3_main_v11 m ρ c)
theorem at1_main_arg0 : W1 m ρ c (Proc.devRef .tc main_arg0) = (X0 m c) := by
  show StableHlo.after hostOps0 (W0 m ρ c) (Proc.devRef .tc main_arg0) = _
  after_results_simp <;> rfl
theorem at1_main_arg2 : W1 m ρ c (Proc.devRef .tc main_arg2) = (X2 m c) := by
  show StableHlo.after hostOps0 (W0 m ρ c) (Proc.devRef .tc main_arg2) = _
  after_results_simp <;> rfl
theorem at1_main_arg4 : W1 m ρ c (Proc.devRef .tc main_arg4) = (X4 m c) := by
  show StableHlo.after hostOps0 (W0 m ρ c) (Proc.devRef .tc main_arg4) = _
  after_results_simp <;> rfl
theorem at1_main_arg5 : W1 m ρ c (Proc.devRef .tc main_arg5) = (X5 m c) := by
  show StableHlo.after hostOps0 (W0 m ρ c) (Proc.devRef .tc main_arg5) = _
  after_results_simp <;> rfl
theorem at2_main_arg5 : W2 m ρ c (Proc.devRef .tc main_arg5) = (X5 m c) :=
  (W2_of_ne m ρ c main_arg5 (by decide)).trans (at1_main_arg5 m ρ c)
theorem at3_main_arg5 : W3 m ρ c (Proc.devRef .tc main_arg5) = (X5 m c) := by
  show StableHlo.after hostOps1 (W2 m ρ c) (Proc.devRef .tc main_arg5) = _
  after_results_simp
  exact at2_main_arg5 m ρ c
theorem at1_main_arg6 : W1 m ρ c (Proc.devRef .tc main_arg6) = (X6 m c) := by
  show StableHlo.after hostOps0 (W0 m ρ c) (Proc.devRef .tc main_arg6) = _
  after_results_simp <;> rfl
theorem at2_main_arg6 : W2 m ρ c (Proc.devRef .tc main_arg6) = (X6 m c) :=
  (W2_of_ne m ρ c main_arg6 (by decide)).trans (at1_main_arg6 m ρ c)
theorem at1_main_arg7 : W1 m ρ c (Proc.devRef .tc main_arg7) = (X7 m c) := by
  show StableHlo.after hostOps0 (W0 m ρ c) (Proc.devRef .tc main_arg7) = _
  after_results_simp <;> rfl
theorem at2_main_arg7 : W2 m ρ c (Proc.devRef .tc main_arg7) = (X7 m c) :=
  (W2_of_ne m ρ c main_arg7 (by decide)).trans (at1_main_arg7 m ρ c)
theorem at3_main_arg7 : W3 m ρ c (Proc.devRef .tc main_arg7) = (X7 m c) := by
  show StableHlo.after hostOps1 (W2 m ρ c) (Proc.devRef .tc main_arg7) = _
  after_results_simp
  exact at2_main_arg7 m ρ c
theorem at1_main_arg8 : W1 m ρ c (Proc.devRef .tc main_arg8) = (X8 m c) := by
  show StableHlo.after hostOps0 (W0 m ρ c) (Proc.devRef .tc main_arg8) = _
  after_results_simp <;> rfl
theorem at2_main_arg8 : W2 m ρ c (Proc.devRef .tc main_arg8) = (X8 m c) :=
  (W2_of_ne m ρ c main_arg8 (by decide)).trans (at1_main_arg8 m ρ c)
theorem at3_main_arg8 : W3 m ρ c (Proc.devRef .tc main_arg8) = (X8 m c) := by
  show StableHlo.after hostOps1 (W2 m ρ c) (Proc.devRef .tc main_arg8) = _
  after_results_simp
  exact at2_main_arg8 m ρ c
theorem at4_main_arg8 : W4 m ρ c (Proc.devRef .tc main_arg8) = (X8 m c) :=
  (W4_of_ne m ρ c main_arg8 (by decide)).trans (at3_main_arg8 m ρ c)
theorem at5_main_arg8 : W5 m ρ c (Proc.devRef .tc main_arg8) = (X8 m c) := by
  show StableHlo.after hostOps2 (W4 m ρ c) (Proc.devRef .tc main_arg8) = _
  after_results_simp
  exact at4_main_arg8 m ρ c
theorem at1_main_arg9 : W1 m ρ c (Proc.devRef .tc main_arg9) = (X9 m c) := by
  show StableHlo.after hostOps0 (W0 m ρ c) (Proc.devRef .tc main_arg9) = _
  after_results_simp <;> rfl
theorem at2_main_arg9 : W2 m ρ c (Proc.devRef .tc main_arg9) = (X9 m c) :=
  (W2_of_ne m ρ c main_arg9 (by decide)).trans (at1_main_arg9 m ρ c)
theorem at3_main_arg9 : W3 m ρ c (Proc.devRef .tc main_arg9) = (X9 m c) := by
  show StableHlo.after hostOps1 (W2 m ρ c) (Proc.devRef .tc main_arg9) = _
  after_results_simp
  exact at2_main_arg9 m ρ c
theorem at4_main_arg9 : W4 m ρ c (Proc.devRef .tc main_arg9) = (X9 m c) :=
  (W4_of_ne m ρ c main_arg9 (by decide)).trans (at3_main_arg9 m ρ c)
theorem at1_main_arg10 : W1 m ρ c (Proc.devRef .tc main_arg10) = (X10 m c) := by
  show StableHlo.after hostOps0 (W0 m ρ c) (Proc.devRef .tc main_arg10) = _
  after_results_simp <;> rfl
theorem at2_main_arg10 : W2 m ρ c (Proc.devRef .tc main_arg10) = (X10 m c) :=
  (W2_of_ne m ρ c main_arg10 (by decide)).trans (at1_main_arg10 m ρ c)
theorem at3_main_arg10 : W3 m ρ c (Proc.devRef .tc main_arg10) = (X10 m c) := by
  show StableHlo.after hostOps1 (W2 m ρ c) (Proc.devRef .tc main_arg10) = _
  after_results_simp
  exact at2_main_arg10 m ρ c
theorem at4_main_arg10 : W4 m ρ c (Proc.devRef .tc main_arg10) = (X10 m c) :=
  (W4_of_ne m ρ c main_arg10 (by decide)).trans (at3_main_arg10 m ρ c)
theorem at5_main_arg10 : W5 m ρ c (Proc.devRef .tc main_arg10) = (X10 m c) := by
  show StableHlo.after hostOps2 (W4 m ρ c) (Proc.devRef .tc main_arg10) = _
  after_results_simp
  exact at4_main_arg10 m ρ c
theorem at1_main_arg11 : W1 m ρ c (Proc.devRef .tc main_arg11) = (X11 m c) := by
  show StableHlo.after hostOps0 (W0 m ρ c) (Proc.devRef .tc main_arg11) = _
  after_results_simp <;> rfl
theorem at2_main_arg11 : W2 m ρ c (Proc.devRef .tc main_arg11) = (X11 m c) :=
  (W2_of_ne m ρ c main_arg11 (by decide)).trans (at1_main_arg11 m ρ c)
theorem at3_main_arg11 : W3 m ρ c (Proc.devRef .tc main_arg11) = (X11 m c) := by
  show StableHlo.after hostOps1 (W2 m ρ c) (Proc.devRef .tc main_arg11) = _
  after_results_simp
  exact at2_main_arg11 m ρ c
theorem at4_main_arg11 : W4 m ρ c (Proc.devRef .tc main_arg11) = (X11 m c) :=
  (W4_of_ne m ρ c main_arg11 (by decide)).trans (at3_main_arg11 m ρ c)
theorem at5_main_arg11 : W5 m ρ c (Proc.devRef .tc main_arg11) = (X11 m c) := by
  show StableHlo.after hostOps2 (W4 m ρ c) (Proc.devRef .tc main_arg11) = _
  after_results_simp
  exact at4_main_arg11 m ρ c
theorem at6_main_arg11 : W6 m ρ c (Proc.devRef .tc main_arg11) = (X11 m c) :=
  (W6_of_ne m ρ c main_arg11 (by decide)).trans (at5_main_arg11 m ρ c)
theorem at7_main_arg11 : W7 m ρ c (Proc.devRef .tc main_arg11) = (X11 m c) := by
  show StableHlo.after hostOps3 (W6 m ρ c) (Proc.devRef .tc main_arg11) = _
  after_results_simp
  exact at6_main_arg11 m ρ c
theorem at1_main_arg12 : W1 m ρ c (Proc.devRef .tc main_arg12) = (X12 m c) := by
  show StableHlo.after hostOps0 (W0 m ρ c) (Proc.devRef .tc main_arg12) = _
  after_results_simp <;> rfl
theorem at2_main_arg12 : W2 m ρ c (Proc.devRef .tc main_arg12) = (X12 m c) :=
  (W2_of_ne m ρ c main_arg12 (by decide)).trans (at1_main_arg12 m ρ c)
theorem at3_main_arg12 : W3 m ρ c (Proc.devRef .tc main_arg12) = (X12 m c) := by
  show StableHlo.after hostOps1 (W2 m ρ c) (Proc.devRef .tc main_arg12) = _
  after_results_simp
  exact at2_main_arg12 m ρ c
theorem at4_main_arg12 : W4 m ρ c (Proc.devRef .tc main_arg12) = (X12 m c) :=
  (W4_of_ne m ρ c main_arg12 (by decide)).trans (at3_main_arg12 m ρ c)
theorem at5_main_arg12 : W5 m ρ c (Proc.devRef .tc main_arg12) = (X12 m c) := by
  show StableHlo.after hostOps2 (W4 m ρ c) (Proc.devRef .tc main_arg12) = _
  after_results_simp
  exact at4_main_arg12 m ρ c
theorem at6_main_arg12 : W6 m ρ c (Proc.devRef .tc main_arg12) = (X12 m c) :=
  (W6_of_ne m ρ c main_arg12 (by decide)).trans (at5_main_arg12 m ρ c)

/-! ## The three layers -/

/-- The mean that region 0 finds: the neighbours' sum times the reciprocal of the clamped degree. -/
theorem mean0 : V1 m ρ c main_v24 = Ref.scaled (Ref.agg (X0 m c) (Ref.src (X1 m c)) (Ref.dst (X1 m c))) (Ref.recip (Ref.deg (X1 m c))) := by
  show StableHlo.after hostOps0 (W0 m ρ c) (Proc.devRef .tc main_v24) = _
  after_results_simp <;> rfl
/-- The bias row that region 0 finds: the bias vector recast as one row. -/
theorem bias0 : V1 m ρ c main_v25 = shapeCast S1x64 (X3 m c) shapeCasts_S64_S1x64 := by
  show StableHlo.after hostOps0 (W0 m ρ c) (Proc.devRef .tc main_v25) = _
  after_results_simp <;> rfl
/-- Region 0's output array after its last point is layer 1's output as the reference computes it. -/
theorem out0 : W2 m ρ c (Proc.devRef .tc main_v26) = (Ref.h1 (X0 m c) (X1 m c) (X2 m c) (X3 m c) (X4 m c)) :=
  (W2_arr m ρ c 5).trans <| (Region0.value (V1 m ρ) c).trans <|
    (layer_congr (n := 100000) (mean0 m ρ c) (at1_main_arg0 m ρ c) (at1_main_arg2 m ρ c) (at1_main_arg4 m ρ c)
      (fun o => (congrFun (bias0 m ρ c) _).trans (reshape_row _ o))).trans <|
    (congrArg (fun M => layer (n := 100000) M (X0 m c) (X2 m c) (X4 m c) (fun o => (X3 m c) (ix1 o))) (Ref.scaled_recip _ _ (Ref.clamp_ne_zero (X1 m c)))).trans <|
    (Ref.layer_eq _ _ _ _ _).symm.trans (Ref.stage1 (X0 m c) (X1 m c) (X2 m c) (X3 m c) (X4 m c)).symm

/-- The features that region 1 finds are the previous layer's output. -/
theorem feat1 : V3 m ρ c main_v26 = (Ref.h1 (X0 m c) (X1 m c) (X2 m c) (X3 m c) (X4 m c)) := by
  show StableHlo.after hostOps1 (W2 m ρ c) (Proc.devRef .tc main_v26) = _
  after_results_simp
  exact out0 m ρ c
/-- The mean that region 1 finds, over what the boundary before its stretch holds. -/
theorem mean1_raw : V3 m ρ c main_v39 = Ref.scaled (Ref.agg (W2 m ρ c (Proc.devRef .tc main_v26)) (W2 m ρ c (Proc.devRef .tc main_v1)) (W2 m ρ c (Proc.devRef .tc main_v3))) (W2 m ρ c (Proc.devRef .tc main_v11)) := by
  show StableHlo.after hostOps1 (W2 m ρ c) (Proc.devRef .tc main_v39) = _
  after_results_simp <;> rfl
/-- The same, with the boundary's contents named. -/
theorem mean1 : V3 m ρ c main_v39 = Ref.scaled (Ref.agg (Ref.h1 (X0 m c) (X1 m c) (X2 m c) (X3 m c) (X4 m c)) (Ref.src (X1 m c)) (Ref.dst (X1 m c))) (Ref.recip (Ref.deg (X1 m c))) := by
  rw [mean1_raw, out0 m ρ c, at2_main_v1 m ρ c, at2_main_v3 m ρ c, at2_main_v11 m ρ c]
/-- The bias row that region 1 finds. -/
theorem bias1_raw : V3 m ρ c main_v40 = shapeCast S1x64 (W2 m ρ c (Proc.devRef .tc main_arg6)) shapeCasts_S64_S1x64 := by
  show StableHlo.after hostOps1 (W2 m ρ c) (Proc.devRef .tc main_v40) = _
  after_results_simp <;> rfl
theorem bias1 : V3 m ρ c main_v40 = shapeCast S1x64 (X6 m c) shapeCasts_S64_S1x64 := by
  rw [bias1_raw, at2_main_arg6 m ρ c]
/-- Region 1's output array after its last point is layer 2's output as the reference computes it. -/
theorem out1 : W4 m ρ c (Proc.devRef .tc main_v41) = (Ref.h2 (X0 m c) (X1 m c) (X2 m c) (X3 m c) (X4 m c) (X5 m c) (X6 m c) (X7 m c)) :=
  (W4_arr m ρ c 5).trans <| (Region1.value (V3 m ρ) c).trans <|
    (layer_congr (n := 100000) (mean1 m ρ c) (feat1 m ρ c) (at3_main_arg5 m ρ c) (at3_main_arg7 m ρ c)
      (fun o => (congrFun (bias1 m ρ c) _).trans (reshape_row _ o))).trans <|
    (congrArg (fun M => layer (n := 100000) M (Ref.h1 (X0 m c) (X1 m c) (X2 m c) (X3 m c) (X4 m c)) (X5 m c) (X7 m c) (fun o => (X6 m c) (ix1 o))) (Ref.scaled_recip _ _ (Ref.clamp_ne_zero (X1 m c)))).trans <|
    (Ref.layer_eq _ _ _ _ _).symm.trans (Ref.stage2 (X0 m c) (X1 m c) (X2 m c) (X3 m c) (X4 m c) (X5 m c) (X6 m c) (X7 m c)).symm

/-- The features that region 2 finds are the previous layer's output. -/
theorem feat2 : V5 m ρ c main_v41 = (Ref.h2 (X0 m c) (X1 m c) (X2 m c) (X3 m c) (X4 m c) (X5 m c) (X6 m c) (X7 m c)) := by
  show StableHlo.after hostOps2 (W4 m ρ c) (Proc.devRef .tc main_v41) = _
  after_results_simp
  exact out1 m ρ c
/-- The mean that region 2 finds, over what the boundary before its stretch holds. -/
theorem mean2_raw : V5 m ρ c main_v54 = Ref.scaled (Ref.agg (W4 m ρ c (Proc.devRef .tc main_v41)) (W4 m ρ c (Proc.devRef .tc main_v1)) (W4 m ρ c (Proc.devRef .tc main_v3))) (W4 m ρ c (Proc.devRef .tc main_v11)) := by
  show StableHlo.after hostOps2 (W4 m ρ c) (Proc.devRef .tc main_v54) = _
  after_results_simp <;> rfl
/-- The same, with the boundary's contents named. -/
theorem mean2 : V5 m ρ c main_v54 = Ref.scaled (Ref.agg (Ref.h2 (X0 m c) (X1 m c) (X2 m c) (X3 m c) (X4 m c) (X5 m c) (X6 m c) (X7 m c)) (Ref.src (X1 m c)) (Ref.dst (X1 m c))) (Ref.recip (Ref.deg (X1 m c))) := by
  rw [mean2_raw, out1 m ρ c, at4_main_v1 m ρ c, at4_main_v3 m ρ c, at4_main_v11 m ρ c]
/-- The bias row that region 2 finds. -/
theorem bias2_raw : V5 m ρ c main_v55 = shapeCast S1x64 (W4 m ρ c (Proc.devRef .tc main_arg9)) shapeCasts_S64_S1x64 := by
  show StableHlo.after hostOps2 (W4 m ρ c) (Proc.devRef .tc main_v55) = _
  after_results_simp <;> rfl
theorem bias2 : V5 m ρ c main_v55 = shapeCast S1x64 (X9 m c) shapeCasts_S64_S1x64 := by
  rw [bias2_raw, at4_main_arg9 m ρ c]
/-- Region 2's output array after its last point is layer 3's output as the reference computes it. -/
theorem out2 : W6 m ρ c (Proc.devRef .tc main_v56) = (Ref.h3 (X0 m c) (X1 m c) (X2 m c) (X3 m c) (X4 m c) (X5 m c) (X6 m c) (X7 m c) (X8 m c) (X9 m c) (X10 m c)) :=
  (W6_arr m ρ c 5).trans <| (Region2.value (V5 m ρ) c).trans <|
    (layer_congr (n := 100000) (mean2 m ρ c) (feat2 m ρ c) (at5_main_arg8 m ρ c) (at5_main_arg10 m ρ c)
      (fun o => (congrFun (bias2 m ρ c) _).trans (reshape_row _ o))).trans <|
    (congrArg (fun M => layer (n := 100000) M (Ref.h2 (X0 m c) (X1 m c) (X2 m c) (X3 m c) (X4 m c) (X5 m c) (X6 m c) (X7 m c)) (X8 m c) (X10 m c) (fun o => (X9 m c) (ix1 o))) (Ref.scaled_recip _ _ (Ref.clamp_ne_zero (X1 m c)))).trans <|
    (Ref.layer_eq _ _ _ _ _).symm.trans (Ref.stage3 (X0 m c) (X1 m c) (X2 m c) (X3 m c) (X4 m c) (X5 m c) (X6 m c) (X7 m c) (X8 m c) (X9 m c) (X10 m c)).symm

/-! ## The projection -/

theorem feat3 : V7 m ρ c main_v56 = (Ref.h3 (X0 m c) (X1 m c) (X2 m c) (X3 m c) (X4 m c) (X5 m c) (X6 m c) (X7 m c) (X8 m c) (X9 m c) (X10 m c)) := by
  show StableHlo.after hostOps3 (W6 m ρ c) (Proc.devRef .tc main_v56) = _
  after_results_simp
  exact out2 m ρ c
theorem bias3_raw : V7 m ρ c main_v57 = shapeCast S1x1 (W6 m ρ c (Proc.devRef .tc main_arg12)) shapeCasts_S1_S1x1 := by
  show StableHlo.after hostOps3 (W6 m ρ c) (Proc.devRef .tc main_v57) = _
  after_results_simp <;> rfl
theorem bias3 : V7 m ρ c main_v57 = shapeCast S1x1 (X12 m c) shapeCasts_S1_S1x1 := by
  rw [bias3_raw, at6_main_arg12 m ρ c]

/-- THE KERNEL PROGRAM'S RESULT: the last boundary's contents of the result buffer are the reference's result of
    the launched arguments. -/
theorem result : W8 m ρ c (Proc.devRef .tc main_v58)
    = Cert.ReferenceIdeal.Read.val_main_v104 (F := Ideal) (X0 m c) (X1 m c) (X2 m c) (X3 m c) (X4 m c) (X5 m c) (X6 m c) (X7 m c) (X8 m c) (X9 m c) (X10 m c) (X11 m c) (X12 m c) :=
  (W8_arr m ρ c 3).trans <| (Region3.value (V7 m ρ) c).trans <|
    (proj_congr (n := 100000) (feat3 m ρ c) (at7_main_arg11 m ρ c)
      ((congrFun (bias3 m ρ c) _).trans (reshape_one _))).trans <|
    (Ref.proj_eq _ _ _).symm.trans (Ref.stage4 (X0 m c) (X1 m c) (X2 m c) (X3 m c) (X4 m c) (X5 m c) (X6 m c) (X7 m c) (X8 m c) (X9 m c) (X10 m c) (X11 m c) (X12 m c)).symm

end Cert.Sage.Kernel

end
-- ==== Proof.lean ====
/-
  A three-layer graph convolution (mean aggregation) followed by a linear projection, on 100000 nodes with 64
  features and 1600000 edges: the kernel program against the plain array program, over the extended reals.

  Both programs gather each edge's source row, add it into the destination node, and scale by the node's degree
  clamped below by one; then each layer is  leaky(mean · Wlᵀ + b + h · Wrᵀ)  and the result is  h₃ · wᵀ + b.
  They differ in two ways only. The kernel program computes the reciprocal of the clamped degree once and MULTIPLIES
  the neighbours' sum by it, where the array program DIVIDES by the clamped degree: on the extended reals division by
  a non-zero number is multiplication by its inverse, and a degree clamped below by one is not zero, so the two
  means are equal for every input (no finiteness is used). And the kernel program computes each layer's dense part
  in ten row blocks inside a kernel region, with the weights transposed inside the body, where the array program
  uses whole-array products: entry by entry both are the same sums, in the same order of addition.

  The frames of the two kernel programs are the generated frame certificates; the array program's frame is its
  generated run with the result dropped; the idealization rewrote nothing, so the preservation claim is trivial. For
  the equivalence, the kernel program's run is posted with its result at the last boundary's contents
  (Proof/SageRun.lean), which is the array program's result function of the launched arguments
  (Proof/SageKernel.lean, over the per-region values Proof/SageRegion0-3.lean, the bodies read at an entry
  Proof/SagePayload.lean, and the array program's layers read as the specification Proof/RefLayers.lean); the array
  program's generated run ends at the same function of its own arguments, which agree with the kernel program's.
-/
import proofs.«131738_j28527172780199_1_alg».proof.Defs
import proofs.«131738_j28527172780199_1_alg».proof.Proof.Gen.Kernel
import proofs.«131738_j28527172780199_1_alg».proof.Proof.Gen.Kernel.Skeleton
import proofs.«131738_j28527172780199_1_alg».proof.Proof.Gen.Kernel.Launch
import proofs.«131738_j28527172780199_1_alg».proof.Proof.Gen.Kernel.Points
import proofs.«131738_j28527172780199_1_alg».proof.Proof.Gen.Kernel.Frame
import proofs.«131738_j28527172780199_1_alg».proof.Proof.Gen.KernelIdeal
import proofs.«131738_j28527172780199_1_alg».proof.Proof.Gen.KernelIdeal.Skeleton
import proofs.«131738_j28527172780199_1_alg».proof.Proof.Gen.KernelIdeal.Launch
import proofs.«131738_j28527172780199_1_alg».proof.Proof.Gen.KernelIdeal.Points
import proofs.«131738_j28527172780199_1_alg».proof.Proof.Gen.KernelIdeal.Frame
import proofs.«131738_j28527172780199_1_alg».proof.Proof.Gen.ReferenceIdeal
import proofs.«131738_j28527172780199_1_alg».proof.Proof.Gen.ReferenceIdeal.Run
import proofs.«131738_j28527172780199_1_alg».proof.Proof.Gen.ReferenceIdeal.Read
import proofs.«131738_j28527172780199_1_alg».proof.Proof.Gen.Pre_finite_inputs
import proofs.«131738_j28527172780199_1_alg».proof.Proof.SageRun
import proofs.«131738_j28527172780199_1_alg».proof.Proof.SageKernel
import Idealize.ShloMosaic.Adequacy
import Idealize.ShloMosaic.Init

noncomputable section

namespace Cert.Proof

open Idealize.ShloMosaic Idealize.SL.Sem Cert.Kernel

/-- The word-level kernel program terminates without a fault and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The array program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the thirteen arguments both programs end with the array program's result function
    of those arguments in their result buffers, and with the arguments unchanged. -/
theorem algebraic : Cert.algebraic_KernelIdeal_ReferenceIdeal := by
  intro m ρ m' ρ' _ hagree
  refine ⟨fun c => Cert.ReferenceIdeal.Read.val_main_v104 (F := Ideal) (Cert.Sage.Kernel.X0 m c) (Cert.Sage.Kernel.X1 m c) (Cert.Sage.Kernel.X2 m c) (Cert.Sage.Kernel.X3 m c) (Cert.Sage.Kernel.X4 m c) (Cert.Sage.Kernel.X5 m c) (Cert.Sage.Kernel.X6 m c) (Cert.Sage.Kernel.X7 m c) (Cert.Sage.Kernel.X8 m c) (Cert.Sage.Kernel.X9 m c) (Cert.Sage.Kernel.X10 m c) (Cert.Sage.Kernel.X11 m c) (Cert.Sage.Kernel.X12 m c), ?_, ?_⟩
  · exact (θ_run Cert.KernelIdeal.defs _ _).mono
      (fun r h c => ⟨(h c).1.trans (Cert.Sage.Kernel.result m ρ c), (h c).2⟩) (Cert.Sage.Run.run_named m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v104_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
